-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x3072 : Shape := ⟨2, ![1024, 3072]⟩
abbrev S3072 : Shape := ⟨1, ![3072]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S4x2048x1024 .f32) (main_arg1 : FVec F S1024x3072 .f32) (main_arg2 : FVec F S3072 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S4x2048x1024 : Shape := ⟨3, ![4, 2048, 1024]⟩
abbrev S1024x3072 : Shape := ⟨2, ![1024, 3072]⟩
abbrev S3072 : Shape := ⟨1, ![3072]⟩
abbrev S8192x1024 : Shape := ⟨2, ![8192, 1024]⟩
abbrev S8192x3072 : Shape := ⟨2, ![8192, 3072]⟩
abbrev S256x1024 : Shape := ⟨2, ![256, 1024]⟩
abbrev S256x3072 : Shape := ⟨2, ![256, 3072]⟩
abbrev S1x3072 : Shape := ⟨2, ![1, 3072]⟩
abbrev S4x2048x3072 : Shape := ⟨3, ![4, 2048, 3072]⟩
abbrev S1x1024x1024 : Shape := ⟨3, ![1, 1024, 1024]⟩
abbrev S1x512x1024 : Shape := ⟨3, ![1, 512, 1024]⟩
abbrev S1024x1 : Shape := ⟨2, ![1024, 1]⟩
abbrev S1024x1024 : Shape := ⟨2, ![1024, 1024]⟩
abbrev S512x1024 : Shape := ⟨2, ![512, 1024]⟩
abbrev S1024x512 : Shape := ⟨2, ![1024, 512]⟩
abbrev S1024 : Shape := ⟨1, ![1024]⟩

abbrev nBuf : Space → Nat
  | .hbm => 7
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S3072, .f32⟩
  | .hbm, ⟨3, _⟩ => ⟨S8192x1024, .f32⟩
  | .hbm, ⟨4, _⟩ => ⟨S8192x3072, .f32⟩
  | .hbm, ⟨5, _⟩ => ⟨S4x2048x3072, .f32⟩
  | .hbm, ⟨6, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x3072, .f32⟩
  | .local _ .vmem, ⟨3, _⟩ => ⟨S3072, .f32⟩
  | .local _ .vmem, ⟨4, _⟩ => ⟨S256x3072, .f32⟩
  | .local _ .vmem, ⟨5, _⟩ => ⟨S256x3072, .f32⟩
  | .local _ .vmem, ⟨6, _⟩ => ⟨S1x1024x1024, .f32⟩
  | .local _ .vmem, ⟨7, _⟩ => ⟨S1x1024x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1024x1, .f32⟩
  | .local _ .vmem, ⟨15, _⟩ => ⟨S1024x1, .f32⟩
  | .local _ .vmem, ⟨16, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v45 : BitVec 1 := Scalar.cmpi .eq arg2 c3_i32
  let v46 : BitVec 32 := Scalar.extui v45
  let c0_i32_27 : BitVec 32 := 0#32
  let v47 : BitVec 1 := Scalar.cmpi .ne v46 c0_i32_27
  v47

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg2.toNat, c2_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S1024x3072_S1024x3072_0_0 : ∀ a, (![0, 0] : Fin 2 → Nat) a + S1024x3072.size a ≤ S1024x3072.size a
  h_S1024x3072 : 0 < S1024x3072.numel
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S256x3072 : S1x3072.Broadcasts S256x3072
  inb_S256x3072_S256x3072_0_0 : ∀ a, (![0, 0] : Fin 2 → Nat) a + S256x3072.size a ≤ S256x3072.size a
  h_S256x3072 : 0 < S256x3072.numel
  shapeCasts_S8192x3072_S4x2048x3072 : S8192x3072.ShapeCasts S4x2048x3072
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S256x1024_S1024x3072_S256x3072_1_0_0_1_n_n_wf : DotDims.WF S256x1024 S1024x3072 S256x3072 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .f32 = 32 ∨ (Rect.block (s := S1024x3072) S1024x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3072.size a ≤ S8192x3072.size a
  hwx0_3 : ∀ i : grid0.Coords, EltTy.bits .f32 = 32 ∨ (Rect.block (s := S8192x3072) S256x3072.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x3072.size a
  hwx1_0 : ∀ i : grid1.Coords, EltTy.bits .f32 = 32 ∨ (Rect.block (s := S4x2048x3072) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x3072.size a
  hwx1_1 : ∀ i : grid1.Coords, EltTy.bits .f32 = 32 ∨ (Rect.block (s := S4x2048x3072) S1x512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x3072.size a
  hwx1_2 : ∀ i : grid1.Coords, EltTy.bits .f32 = 32 ∨ (Rect.block (s := S4x2048x3072) S1x512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x3072 : Shape := ⟨2, ![1024, 3072]⟩
abbrev S3072 : Shape := ⟨1, ![3072]⟩
abbrev S4x2048x3072 : Shape := ⟨3, ![4, 2048, 3072]⟩
abbrev S1x1x3072 : Shape := ⟨3, ![1, 1, 3072]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S3072, .f32⟩
  | .hbm, ⟨3, _⟩ => ⟨S4x2048x3072, .f32⟩
  | .hbm, ⟨4, _⟩ => ⟨S1x1x3072, .f32⟩
  | .hbm, ⟨5, _⟩ => ⟨S4x2048x3072, .f32⟩
  | .hbm, ⟨6, _⟩ => ⟨S4x2048x3072, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x3072_S4x2048x3072_2_0_01_1_n_n_wf : DotDims.WF S4x2048x1024 S1024x3072 S4x2048x3072 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x3072_S4x2048x3072_2_0_01_1_n_n : DotDims S4x2048x1024 S1024x3072 S4x2048x3072 where
  lhsContracting := [2]
  rhsContracting := [0]
  lhsNonContracting := [0, 1]
  rhsNonContracting := [1]
  lhsBatch := []
  rhsBatch := []
  wf := dot_S4x2048x1024_S1024x3072_S4x2048x3072_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Kernel.Body0.lean ====
/-
  Region 0 of @main: the projection `x · W + b` on row blocks of 256. The body loads its three input blocks whole,
  computes one product and one sum, and stores the output block whole; it reads nothing it wrote and keeps nothing
  between grid points. Stated at the contents `V` the region is entered with, for any float instance.
-/
import proofs.«138782_j46694884442159_2_alg».proof.Proof.Gen.Kernel.Launch
import proofs.«138782_j46694884442159_2_alg».proof.Proof.Gen.Kernel.Skeleton
import proofs.«138782_j46694884442159_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not
    fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_x : Rect S256x1024 := Rect.unit (s := S256x1024) ![0, 0] S256x1024.size inb_S256x1024_S256x1024_0_0
abbrev r0_w : Rect S1024x3072 := Rect.unit (s := S1024x3072) ![0, 0] S1024x3072.size inb_S1024x3072_S1024x3072_0_0
abbrev r0_b : Rect S3072 := Rect.unit (s := S3072) ![0] S3072.size inb_S3072_S3072_0
abbrev r0_o : Rect S256x3072 := Rect.unit (s := S256x3072) ![0, 0] S256x3072.size inb_S256x3072_S256x3072_0_0

/-- What the body leaves in the output block: its one store, of the product plus the bias, over the three input blocks. -/
def out0_3 (x0 : Vec F S256x1024 .f32) (x1 : Vec F S1024x3072 .f32) (x2 : Vec F S3072 .f32) : Vec F S256x3072 .f32 :=
  View.canon [⟨r0_o, k0_pay1 (View.ld x0 r0_x) (View.ld x1 r0_w) (View.ld x2 r0_b)⟩]

/-- The one store covers the block. -/
theorem cover0_3 (p0 : Vec F S256x3072 .f32) (y : S256x3072.Idx) :
    ∃ pc ∈ ([⟨r0_o, p0⟩] : List (View.Piece (Elt F) S256x3072 .f32)), y ∈ pc.1.set :=
  View.cover_of_tiled [⟨r0_o, p0⟩] S256x3072.size (by rfl) y

set_option maxHeartbeats 1000000 in
/-- The body on whole staging buffers: the inputs' come back as they were, the output's holds `out0_3` of them. -/
theorem sound_kernel0 (c : Dev nD) (E : Set ℕ) (i : grid0.Coords) (arg1 : Memref sig .tc .vmem S256x1024 .f32) (harg1 : arg1.IsWhole) (arg2 : Memref sig .tc .vmem S1024x3072 .f32) (harg2 : arg2.IsWhole) (arg3 : Memref sig .tc .vmem S3072 .f32) (harg3 : arg3.IsWhole) (arg4 : Memref sig .tc .vmem S256x3072 .f32) (harg4 : arg4.IsWhole)
    (x0 : Vec F S256x1024 .f32) (x1 : Vec F S1024x3072 .f32) (x2 : Vec F S3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of region 0 on core `c`: the arrays as the region finds them; after the body each input's buffer
    at its block, the output's at `out0_3` of the three input blocks; the scoped rest and the generator register ride
    along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.Kernel.B1Defs.lean ====
/-
  Region 1 of @main: attention over the projected rows, one (batch, query block) at a time, walking the four key
  blocks in the innermost grid axis. What the three cases of the body share: the windows' blocks, the two conditions
  on the key-block coordinate in closed form (first block: reset the running maximum, normaliser and weighted sum;
  last block: divide and store), where the output window is idle, and the names of the staging and scratch buffers.
-/
import proofs.«138782_j46694884442159_2_alg».proof.Proof.Kernel.Body0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The first conditional: the key-block coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second: it is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The inputs are never idle; the output is idle, and not written back, except at the last key block. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- One staging buffer of the output window, through which its contents are stated. -/
abbrev VO1_3 : View sig .tc .vmem S1x1024x1024 .f32 := (Memref.whole cc1_stg3_0 : Memref sig .tc .vmem S1x1024x1024 .f32).view
/-- Each window's current staging buffer at point `t`, as the pipeline passes it. -/
abbrev ms1_0 (t : Fin cfg1.N) : Memref sig .tc .vmem S1x1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The scratch buffers: the running maximum, the running normaliser, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The scoped buffers of the core that this region neither stages nor uses as scratch, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's invariant before its first point, conjunct by conjunct: the other scoped buffers, the three scratch
    buffers at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Fr

end
-- ==== Proof.Kernel.Run1A.lean ====
/-
  Region 1, the first key block of a (batch, query block): the body first resets the running maximum to −∞ and the
  running normaliser and weighted sum to 0, whatever the scratch held, then processes the block as any other. It stores
  into the three scratch buffers only. The pieces each scratch ends with are found by running the body.
-/
import proofs.«138782_j46694884442159_2_alg».proof.Proof.Kernel.B1Defs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the inputs at their contents, the output at contents handed back untouched, the scratch at
    anything — the body runs to the inputs as they were and each scratch with its pieces written. -/
noncomputable def kernelRun1_A (c : Dev nD) (i : grid1.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .f32) (x1 : Vec F S1x512x1024 .f32) (x2 : Vec F S1x512x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Fr

end
-- ==== Proof.Kernel.Run1B.lean ====
/-
  Region 1, a middle key block (neither the first nor the last): the body rescales the running normaliser and weighted
  sum by exp(old maximum − new maximum), adds this block's terms, and keeps the new maximum; it stores into the three
  scratch buffers only. The pieces each scratch ends with are found by running the body.
-/
import proofs.«138782_j46694884442159_2_alg».proof.Proof.Kernel.Run1A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the inputs at their contents, the output at contents handed back untouched, the scratch at
    what the point before left — the body runs to the inputs as they were and each scratch with its pieces written. -/
noncomputable def kernelRun1_B (c : Dev nD) (i : grid1.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .f32) (x1 : Vec F S1x512x1024 .f32) (x2 : Vec F S1x512x1024 .f32) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Fr

end
-- ==== Proof.Kernel.Run1C.lean ====
/-
  Region 1, the last key block: after the block's update the body divides the weighted sum by the normaliser and
  stores the quotient into the output block. The pieces the output and each scratch end with are found by running the body.
-/
import proofs.«138782_j46694884442159_2_alg».proof.Proof.Kernel.Run1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the inputs at their contents, the output at anything, the scratch at what the point before
    left — the body runs to the inputs as they were, the output and each scratch with their pieces written. -/
noncomputable def kernelRun1_C (c : Dev nD) (i : grid1.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .f32) (x1 : Vec F S1x512x1024 .f32) (x2 : Vec F S1x512x1024 .f32) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Fr

end
-- ==== Proof.Kernel.Body1.lean ====
/-
  Region 1: what the scratch buffers and the output block hold point by point, the proof data, and the body obligation.
  The running maximum, normaliser and weighted sum after a point are the case's run over what the point before left
  (a first key block ignores it); the output block is written at the last key block of each (batch, query block) only.
-/
import proofs.«138782_j46694884442159_2_alg».proof.Proof.Kernel.Run1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's run at point `t`, a first key block. -/
noncomputable abbrev runA_at (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)

/-- Its pieces for scratch 0 tile the buffer, so they cover it. -/
theorem scover1_A_0 (c : Dev nD) (t : Fin cfg1.N) (h0 : t.val % 4 = 0) (h1 : ¬t.val % 4 = 3) (y : S1024x1.Idx) :
    ∃ pc ∈ (runA_at V c t h0 h1).1, y ∈ pc.1.set :=
  View.cover_of_tiledL (runA_at V c t h0 h1).1 S1024x1.size (by sl_kernel_rfl) y

/-- Its pieces for scratch 1 tile the buffer, so they cover it. -/
theorem scover1_A_1 (c : Dev nD) (t : Fin cfg1.N) (h0 : t.val % 4 = 0) (h1 : ¬t.val % 4 = 3) (y : S1024x1.Idx) :
    ∃ pc ∈ (runA_at V c t h0 h1).2.1, y ∈ pc.1.set :=
  View.cover_of_tiledL (runA_at V c t h0 h1).2.1 S1024x1.size (by sl_kernel_rfl) y

/-- Its pieces for scratch 2 tile the buffer, so they cover it. -/
theorem scover1_A_2 (c : Dev nD) (t : Fin cfg1.N) (h0 : t.val % 4 = 0) (h1 : ¬t.val % 4 = 3) (y : S1024x1024.Idx) :
    ∃ pc ∈ (runA_at V c t h0 h1).2.2.1, y ∈ pc.1.set :=
  View.cover_of_tiledL (runA_at V c t h0 h1).2.2.1 S1024x1024.size (by sl_kernel_rfl) y

/-- What it leaves in the three scratch buffers: its pieces read back. -/
def sA (c : Dev nD) (t : Fin cfg1.N) (h0 : t.val % 4 = 0) (h1 : ¬t.val % 4 = 3) : Vec F S1024x1 .f32 × Vec F S1024x1 .f32 × Vec F S1024x1024 .f32 :=
  (VS1_0.read (Elt F) (VS1_0.writes (Elt F) VS1_0.junk (runA_at V c t h0 h1).1),
   VS1_1.read (Elt F) (VS1_1.writes (Elt F) VS1_1.junk (runA_at V c t h0 h1).2.1),
   VS1_2.read (Elt F) (VS1_2.writes (Elt F) VS1_2.junk (runA_at V c t h0 h1).2.2.1))

/-- The body's run at point `t`, a middle key block (over the scratch contents `s` the point before left). -/
noncomputable abbrev runB_at (c : Dev nD) (t : Fin cfg1.N) (h0 : ¬t.val % 4 = 0) (h1 : ¬t.val % 4 = 3) (s : Vec F S1024x1 .f32 × Vec F S1024x1 .f32 × Vec F S1024x1024 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) s.1 s.2.1 s.2.2

/-- Its pieces for scratch 0 tile the buffer, so they cover it. -/
theorem scover1_B_0 (c : Dev nD) (t : Fin cfg1.N) (h0 : ¬t.val % 4 = 0) (h1 : ¬t.val % 4 = 3) (s : Vec F S1024x1 .f32 × Vec F S1024x1 .f32 × Vec F S1024x1024 .f32) (y : S1024x1.Idx) :
    ∃ pc ∈ (runB_at V c t h0 h1 s).1, y ∈ pc.1.set :=
  View.cover_of_tiledL (runB_at V c t h0 h1 s).1 S1024x1.size (by sl_kernel_rfl) y

/-- Its pieces for scratch 1 tile the buffer, so they cover it. -/
theorem scover1_B_1 (c : Dev nD) (t : Fin cfg1.N) (h0 : ¬t.val % 4 = 0) (h1 : ¬t.val % 4 = 3) (s : Vec F S1024x1 .f32 × Vec F S1024x1 .f32 × Vec F S1024x1024 .f32) (y : S1024x1.Idx) :
    ∃ pc ∈ (runB_at V c t h0 h1 s).2.1, y ∈ pc.1.set :=
  View.cover_of_tiledL (runB_at V c t h0 h1 s).2.1 S1024x1.size (by sl_kernel_rfl) y

/-- Its pieces for scratch 2 tile the buffer, so they cover it. -/
theorem scover1_B_2 (c : Dev nD) (t : Fin cfg1.N) (h0 : ¬t.val % 4 = 0) (h1 : ¬t.val % 4 = 3) (s : Vec F S1024x1 .f32 × Vec F S1024x1 .f32 × Vec F S1024x1024 .f32) (y : S1024x1024.Idx) :
    ∃ pc ∈ (runB_at V c t h0 h1 s).2.2.1, y ∈ pc.1.set :=
  View.cover_of_tiledL (runB_at V c t h0 h1 s).2.2.1 S1024x1024.size (by sl_kernel_rfl) y

/-- What it leaves in the three scratch buffers: its pieces read back. -/
def sB (c : Dev nD) (t : Fin cfg1.N) (h0 : ¬t.val % 4 = 0) (h1 : ¬t.val % 4 = 3) (s : Vec F S1024x1 .f32 × Vec F S1024x1 .f32 × Vec F S1024x1024 .f32) : Vec F S1024x1 .f32 × Vec F S1024x1 .f32 × Vec F S1024x1024 .f32 :=
  (VS1_0.read (Elt F) (VS1_0.writes (Elt F) VS1_0.junk (runB_at V c t h0 h1 s).1),
   VS1_1.read (Elt F) (VS1_1.writes (Elt F) VS1_1.junk (runB_at V c t h0 h1 s).2.1),
   VS1_2.read (Elt F) (VS1_2.writes (Elt F) VS1_2.junk (runB_at V c t h0 h1 s).2.2.1))

/-- The body's run at point `t`, the last key block (over the scratch contents `s` the point before left). -/
noncomputable abbrev runC_at (c : Dev nD) (t : Fin cfg1.N) (h0 : ¬t.val % 4 = 0) (h1 : t.val % 4 = 3) (s : Vec F S1024x1 .f32 × Vec F S1024x1 .f32 × Vec F S1024x1024 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) s.1 s.2.1 s.2.2

/-- Its pieces for scratch 0 tile the buffer, so they cover it. -/
theorem scover1_C_0 (c : Dev nD) (t : Fin cfg1.N) (h0 : ¬t.val % 4 = 0) (h1 : t.val % 4 = 3) (s : Vec F S1024x1 .f32 × Vec F S1024x1 .f32 × Vec F S1024x1024 .f32) (y : S1024x1.Idx) :
    ∃ pc ∈ (runC_at V c t h0 h1 s).2.1, y ∈ pc.1.set :=
  View.cover_of_tiledL (runC_at V c t h0 h1 s).2.1 S1024x1.size (by sl_kernel_rfl) y

/-- Its pieces for scratch 1 tile the buffer, so they cover it. -/
theorem scover1_C_1 (c : Dev nD) (t : Fin cfg1.N) (h0 : ¬t.val % 4 = 0) (h1 : t.val % 4 = 3) (s : Vec F S1024x1 .f32 × Vec F S1024x1 .f32 × Vec F S1024x1024 .f32) (y : S1024x1.Idx) :
    ∃ pc ∈ (runC_at V c t h0 h1 s).2.2.1, y ∈ pc.1.set :=
  View.cover_of_tiledL (runC_at V c t h0 h1 s).2.2.1 S1024x1.size (by sl_kernel_rfl) y

/-- Its pieces for scratch 2 tile the buffer, so they cover it. -/
theorem scover1_C_2 (c : Dev nD) (t : Fin cfg1.N) (h0 : ¬t.val % 4 = 0) (h1 : t.val % 4 = 3) (s : Vec F S1024x1 .f32 × Vec F S1024x1 .f32 × Vec F S1024x1024 .f32) (y : S1024x1024.Idx) :
    ∃ pc ∈ (runC_at V c t h0 h1 s).2.2.2.1, y ∈ pc.1.set :=
  View.cover_of_tiledL (runC_at V c t h0 h1 s).2.2.2.1 S1024x1024.size (by sl_kernel_rfl) y

/-- What it leaves in the three scratch buffers: its pieces read back. -/
def sC (c : Dev nD) (t : Fin cfg1.N) (h0 : ¬t.val % 4 = 0) (h1 : t.val % 4 = 3) (s : Vec F S1024x1 .f32 × Vec F S1024x1 .f32 × Vec F S1024x1024 .f32) : Vec F S1024x1 .f32 × Vec F S1024x1 .f32 × Vec F S1024x1024 .f32 :=
  (VS1_0.read (Elt F) (VS1_0.writes (Elt F) VS1_0.junk (runC_at V c t h0 h1 s).2.1),
   VS1_1.read (Elt F) (VS1_1.writes (Elt F) VS1_1.junk (runC_at V c t h0 h1 s).2.2.1),
   VS1_2.read (Elt F) (VS1_2.writes (Elt F) VS1_2.junk (runC_at V c t h0 h1 s).2.2.2.1))

/-- The last key block's pieces for the output tile its block, so they cover it. -/
theorem cover1_C_3 (c : Dev nD) (t : Fin cfg1.N) (h0 : ¬t.val % 4 = 0) (h1 : t.val % 4 = 3) (s : Vec F S1024x1 .f32 × Vec F S1024x1 .f32 × Vec F S1024x1024 .f32) (y : S1x1024x1024.Idx) :
    ∃ pc ∈ (runC_at V c t h0 h1 s).1, y ∈ pc.1.set :=
  View.cover_of_tiledL (runC_at V c t h0 h1 s).1 S1x1024x1024.size (by sl_kernel_rfl) y

/-- What it leaves in the output block: its pieces read back. -/
def oC (c : Dev nD) (t : Fin cfg1.N) (h0 : ¬t.val % 4 = 0) (h1 : t.val % 4 = 3) (s : Vec F S1024x1 .f32 × Vec F S1024x1 .f32 × Vec F S1024x1024 .f32) : Vec F S1x1024x1024 .f32 :=
  VO1_3.read (Elt F) (VO1_3.writes (Elt F) VO1_3.junk (runC_at V c t h0 h1 s).1)

/-- Contents nothing consults: the output block's entry at a point that stores nothing into it and does not write it back. -/
def oIdle : Vec F S1x1024x1024 .f32 := VO1_3.read (Elt F) VO1_3.junk

/-- THE ACCUMULATION. The output block and the three scratch buffers after the body at position `n`: the case the
    key-block coordinate selects, run at the point's blocks over what position `n − 1` left in the scratch. -/
def outsAt1 (c : Dev nD) : (n : ℕ) → n < cfg1.N → Vec F S1x1024x1024 .f32 × (Vec F S1024x1 .f32 × Vec F S1024x1 .f32 × Vec F S1024x1024 .f32)
  | 0, hn => (oIdle, sA V c ⟨0, hn⟩ (Nat.zero_mod _) (by intro h; (try dsimp only at h); omega))
  | n + 1, hn =>
    if h0 : (n + 1) % 4 = 0 then
      if h1 : (n + 1) % 4 = 3 then
        False.elim (by omega)
      else (oIdle, sA V c ⟨n + 1, hn⟩ h0 h1)
    else
      if h1 : (n + 1) % 4 = 3 then
        (oC V c ⟨n + 1, hn⟩ h0 h1 (outsAt1 c n (Nat.lt_of_succ_lt hn)).2, sC V c ⟨n + 1, hn⟩ h0 h1 (outsAt1 c n (Nat.lt_of_succ_lt hn)).2)
      else
        (oIdle, sB V c ⟨n + 1, hn⟩ h0 h1 (outsAt1 c n (Nat.lt_of_succ_lt hn)).2)

theorem outsAt1_A (c : Dev nD) (t : Fin cfg1.N) (h0 : t.val % 4 = 0) (h1 : ¬t.val % 4 = 3) :
    outsAt1 V c t.val t.isLt = (oIdle, sA V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (oIdle, sB V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (oC V c t h0 h1 (outsAt1 V c (t.val - 1) (Nat.lt_of_le_of_lt (Nat.sub_le _ _) t.isLt)).2, sC V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scratch at anything; afterwards each scratch
    at what the point before left in it; the other scoped buffers and the generator register ride along. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-- The proof data of region 1 on core `c`: the arrays as the region finds them; after the body each input's buffer at
    its block and the output's at `outsAt1`'s first component; the invariant `PhiS`; nothing owed; the projected array,
    which the three input windows all read, dealt among them in three shares that make the whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the key-block coordinate says which case the point is
    in; the invariant hands the body the scratch at what the point before left (at anything at the first point) and takes
    it back at this point's contents; the output buffer comes back untouched except at a last key block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sA; (try dsimp only)
      by_cases hz : t.val = 0
      · rw [PhiS_castSucc V c t, PhiS_zero V c _ _ hz, PhiA1_eq]
        iintro ⟨⟨⟨HR0, HR1, HR2, HR3, HR4, HR5, HS0, HS1, HS2⟩, Hg⟩, Ho, ⟨%d0, H0⟩, ⟨%d1, H1⟩, ⟨%d2, H2⟩, ⟨%d3, H3⟩⟩
        iapply ((runA_at V c t h0 h1).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR0 HR1 HR2 HR3 HR4 HR5 HS0 HS1 HS2 Hg]
        · isplitl [HR0 HR1 HR2 HR3 HR4 HR5 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS0]
            · unfold owns; iexists _; isplitr
              swap; · iexact HS0
              ipureintro; exact View.read_writes_of_cover _ _ _ _ _ (scover1_A_0 V c t h0 h1)
            isplitl [HS1]
            · unfold owns; iexists _; isplitr
              swap; · iexact HS1
              ipureintro; exact View.read_writes_of_cover _ _ _ _ _ (scover1_A_1 V c t h0 h1)
            unfold owns; iexists _; isplitr
            swap; · iexact HS2
            ipureintro; exact View.read_writes_of_cover _ _ _ _ _ (scover1_A_2 V c t h0 h1)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HR0, HR1, HR2, HR3, HR4, HR5, HS0, HS1, HS2⟩, Hg⟩, Ho, ⟨%d0, H0⟩, ⟨%d1, H1⟩, ⟨%d2, H2⟩, ⟨%d3, H3⟩⟩
        iapply ((runA_at V c t h0 h1).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HR0 HR1 HR2 HR3 HR4 HR5 HS0 HS1 HS2 Hg]
        · isplitl [HR0 HR1 HR2 HR3 HR4 HR5 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS0]
            · unfold owns; iexists _; isplitr
              swap; · iexact HS0
              ipureintro; exact View.read_writes_of_cover _ _ _ _ _ (scover1_A_0 V c t h0 h1)
            isplitl [HS1]
            · unfold owns; iexists _; isplitr
              swap; · iexact HS1
              ipureintro; exact View.read_writes_of_cover _ _ _ _ _ (scover1_A_1 V c t h0 h1)
            unfold owns; iexists _; isplitr
            swap; · iexact HS2
            ipureintro; exact View.read_writes_of_cover _ _ _ _ _ (scover1_A_2 V c t h0 h1)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold oC sC; (try dsimp only)
      rw [PhiS_castSucc V c t, PhiS_pos V c _ _ hz]
      iintro ⟨⟨⟨HR0, HR1, HR2, HR3, HR4, HR5, HS0, HS1, HS2⟩, Hg⟩, Ho, ⟨%d0, H0⟩, ⟨%d1, H1⟩, ⟨%d2, H2⟩, ⟨%d3, H3⟩⟩
      iapply ((runC_at V c t h0 h1 _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HR0 HR1 HR2 HR3 HR4 HR5 HS0 HS1 HS2 Hg]
      · isplitl [HR0 HR1 HR2 HR3 HR4 HR5 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · unfold owns; iexists _; isplitr
            swap; · iexact HS0
            ipureintro; exact View.read_writes_of_cover _ _ _ _ _ (scover1_C_0 V c t h0 h1 _)
          isplitl [HS1]
          · unfold owns; iexists _; isplitr
            swap; · iexact HS1
            ipureintro; exact View.read_writes_of_cover _ _ _ _ _ (scover1_C_1 V c t h0 h1 _)
          unfold owns; iexists _; isplitr
          swap; · iexact HS2
          ipureintro; exact View.read_writes_of_cover _ _ _ _ _ (scover1_C_2 V c t h0 h1 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 V c t h0 h1 _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sB; (try dsimp only)
      rw [PhiS_castSucc V c t, PhiS_pos V c _ _ hz]
      iintro ⟨⟨⟨HR0, HR1, HR2, HR3, HR4, HR5, HS0, HS1, HS2⟩, Hg⟩, Ho, ⟨%d0, H0⟩, ⟨%d1, H1⟩, ⟨%d2, H2⟩, ⟨%d3, H3⟩⟩
      iapply ((runB_at V c t h0 h1 _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR0 HR1 HR2 HR3 HR4 HR5 HS0 HS1 HS2 Hg]
      · isplitl [HR0 HR1 HR2 HR3 HR4 HR5 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · unfold owns; iexists _; isplitr
            swap; · iexact HS0
            ipureintro; exact View.read_writes_of_cover _ _ _ _ _ (scover1_B_0 V c t h0 h1 _)
          isplitl [HS1]
          · unfold owns; iexists _; isplitr
            swap; · iexact HS1
            ipureintro; exact View.read_writes_of_cover _ _ _ _ _ (scover1_B_1 V c t h0 h1 _)
          unfold owns; iexists _; isplitr
          swap; · iexact HS2
          ipureintro; exact View.read_writes_of_cover _ _ _ _ _ (scover1_B_2 V c t h0 h1 _)
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back, the scratch contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨HR0, HR1, HR2, HR3, HR4, HR5, HS0, HS1, HS2⟩, Hg⟩
  isplitl [HR0 HR1 HR2 HR3 HR4 HR5 HS0 HS1 HS2]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    isplitl [HS1]; · iexists _; iexact HS1
    iexists _; iexact HS2
  iexact Hg

end Cert.Kernel.Fr

end
-- ==== Proof.Kernel.Run.lean ====
/-
  The run of @main: a reshape, region 0, a reshape, region 1. The buffer contents at each boundary are a fold from the
  launch memory; each region is entered from the thread state "every unscoped buffer at the boundary's contents" and
  left at the next one. Region 1's three input windows read one array, so its entry deals that array's full share into
  three shares and its exit joins them again. The run ends with every unscoped buffer at the last boundary's contents.
-/
import proofs.«138782_j46694884442159_2_alg».proof.Proof.Kernel.Body1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first reshape (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second reshape (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: the result array at what the write-backs leave, every other buffer as entered (its three input
    windows read one array and write nothing). -/
def W4 (c : Dev nD) : Valuation τ sig (Elt F) :=
  Function.update (W3 m ρ c) (Proc.devRef .tc main_v3) ((dat1 (V3 m ρ) c).arrAt 3 cfg1.N)
abbrev V4 : (c : Dev nD) → (b : Ref sig .tc) → Buf (Elt F) ((c : Thread nD τ).loc b) := fun c b => W4 m ρ c b
theorem W4_v3 (c : Dev nD) : W4 m ρ c (Proc.devRef .tc main_v3) = (dat1 (V3 m ρ) c).arrAt 3 cfg1.N := by
  unfold W4; exact Function.update_self ..
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) ..

/-- Each argument array ends as launched: no reshape writes one and no region writes one. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A reshape as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- REGION 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's arrays, window by window: the three input windows hold three shares of the projected array that make
    the whole, the output window the result array whole. -/
theorem arrays1_eq (V : (c : Dev nD) → (b : Ref sig .tc) → Buf (Elt F) ((c : Thread nD τ).loc b)) (c : Dev nD) (Fw : (w : Fin cfg1.W) → Buf (Elt F) ((cfg1.win w).arr.view.loc (c.tc : Thread nD τ))) :
    ((dat1 V c).arrays Fw : sProp 𝕄) = iprop((((c : Thread nD τ).loc main_v2) ↦{fullShare.left} Fw 0) ∗ (((c : Thread nD τ).loc main_v2) ↦{fullShare.right.left} Fw 1) ∗ (((c : Thread nD τ).loc main_v2) ↦{fullShare.right.right} Fw 2) ∗ (((c : Thread nD τ).loc main_v3) ↦{fullShare} Fw 3)) := by
  unfold Dat.arrays
  have h : ∀ w : Fin cfg1.W, (((cfg1.win w).arr.view.loc (c.tc : Thread nD τ)) ↦[(cfg1.win w).arr.view.set]{(dat1 V c).share w} Fw w : sProp 𝕄)
      = (((cfg1.win w).arr.view.loc (c.tc : Thread nD τ)) ↦{(dat1 V c).share w} Fw w) := fun w => by
    rw [(arr_whole1 w).set_eq_univ]
  rw [bigSep_congr fun w _ => h w, bigSep_W1]; rfl

/-- The distinct buffers behind region 1's arrays: the projected array and the result array. -/
theorem arrBufs1_eq (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄)
      = iprop((((c : Thread nD τ).loc main_v2) ↦{fullShare} V c main_v2) ∗ (((c : Thread nD τ).loc main_v3) ↦{fullShare} V c main_v3)) := by
  unfold Pipeline.arrBufs; rw [BI.bigSep_eq_bigSepL_of_eq [main_v2, main_v3] (by decide) (by decide)]; rfl

/-- ENTRY: the projected array's full share dealt among the three windows that read it; the result array whole. -/
theorem entry1 (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrays1_eq, arrBufs1_eq]
  iintro ⟨H2, H3⟩
  ihave Hs := (pointsTo_share (PosShare.mem_left_op_right fullShare)).1 $$ H2
  icases Hs with ⟨Ha, Hbc⟩
  ihave Hs2 := (pointsTo_share (PosShare.mem_left_op_right fullShare.right)).1 $$ Hbc
  icases Hs2 with ⟨Hb, Hc⟩
  isplitl [Ha]; · iexact Ha
  isplitl [Hb]; · iexact Hb
  isplitl [Hc]; · iexact Hc
  iexact H3

/-- EXIT: the three shares of the projected array, unchanged by the region, join to the whole; the result array is
    whole at what the write-backs left. -/
theorem exit1 (V : (c : Dev nD) → (b : Ref sig .tc) → Buf (Elt F) ((c : Thread nD τ).loc b)) (c : Dev nD) :
    (dat1 V c).arrays ((dat1 V c).arrAt · cfg1.N)
      ⊢ (iprop((((c : Thread nD τ).loc main_v2) ↦{fullShare} V c main_v2) ∗ (((c : Thread nD τ).loc main_v3) ↦{fullShare} (dat1 V c).arrAt 3 cfg1.N)) : sProp 𝕄) := by
  have e0 : (dat1 V c).arrAt 0 cfg1.N = V c main_v2 := ((dat1 V c).arrAt_in 0 rfl _).trans (A_eq1 V c 0)
  have e1 : (dat1 V c).arrAt 1 cfg1.N = V c main_v2 := ((dat1 V c).arrAt_in 1 rfl _).trans (A_eq1 V c 1)
  have e2 : (dat1 V c).arrAt 2 cfg1.N = V c main_v2 := ((dat1 V c).arrAt_in 2 rfl _).trans (A_eq1 V c 2)
  rw [arrays1_eq]
  beta_reduce
  rw [e0, e1, e2]
  iintro ⟨Ha, Hb, Hc, H3⟩
  isplitl [Ha Hb Hc]
  · iapply (pointsTo_share (PosShare.mem_left_op_right fullShare)).2
    isplitl [Ha]; · iexact Ha
    iapply (pointsTo_share (PosShare.mem_left_op_right fullShare.right)).2
    isplitl [Hb] <;> iassumption
  iexact H3

/-- The buffers no window of region 1 stages are untouched by it. -/
theorem rest1_eq (c : Dev nD) :
    (Pipeline.unscopedRest (Ix := Unit) (Name := ℕ) (U := UR sig nD τ) (Lvl := ℕ) spec1 c (V4 m ρ c) : sProp 𝕄)
      = Pipeline.unscopedRest spec1 c (V3 m ρ c) := by
  unfold Pipeline.unscopedRest
  exact bigSep_congr fun b hb => by
    rw [show V4 m ρ c b = V3 m ρ c b from W4_of_ne m ρ c b (fun e => (Finset.mem_sdiff.mp hb).2 (Finset.mem_image.mpr ⟨3, Finset.mem_univ _, by subst e; rfl⟩))]

set_option backward.isDefEq.respectTransparency.types false in
/-- REGION 1 over the thread state: entered from every unscoped buffer at `W3`, left at `W4`. The projected array is
    split out of the unscoped buffers and dealt among the three windows reading it, and joined again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hs : (unscopedBufs c (V3 m ρ c) : sProp 𝕄) = iprop(Pipeline.arrBufs spec1 c (V3 m ρ c) ∗ Pipeline.unscopedRest spec1 c (V3 m ρ c)) :=
      Pipeline.unscopedBufs_split₀ (Ix := Unit) (Name := ℕ) (U := UR sig nD τ) (Lvl := ℕ) (Val := Elt F) (nD := nD) (τ := τ) cfgs 1 winFacts₀1.arr_unscoped c (V3 m ρ c)
    rw [Pipeline.unscopedBufs_held] at hs
    iintro ⟨⟨Hub, Hp, HO⟩, -, -⟩
    ihave H := (Entails.of_eq hs) $$ Hub
    icases H with ⟨Hab, Hrest⟩
    ihave Ha := (entry1 (V3 m ρ) c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hs : (unscopedBufs c (V4 m ρ c) : sProp 𝕄) = iprop(Pipeline.arrBufs spec1 c (V4 m ρ c) ∗ Pipeline.unscopedRest spec1 c (V4 m ρ c)) :=
      Pipeline.unscopedBufs_split₀ (Ix := Unit) (Name := ℕ) (U := UR sig nD τ) (Lvl := ℕ) (Val := Elt F) (nD := nD) (τ := τ) cfgs 1 winFacts₀1.arr_unscoped c (V4 m ρ c)
    rw [Pipeline.unscopedBufs_held, rest1_eq, arrBufs1_eq (V4 m ρ) c,
      show V4 m ρ c main_v2 = V3 m ρ c main_v2 from W4_of_ne m ρ c main_v2 (by decide),
      show V4 m ρ c main_v3 = (dat1 (V3 m ρ) c).arrAt 3 cfg1.N from W4_v3 m ρ c] at hs
    have hx : ((pdats m ρ 1 c).arrays fun x => (pdats m ρ 1 c).arrAt x (Pipeline.pin (pcfgs (F := F)) adm 1).N)
        ⊢ (iprop((((c : Thread nD τ).loc main_v2) ↦{fullShare} V3 m ρ c main_v2) ∗ (((c : Thread nD τ).loc main_v3) ↦{fullShare} (dat1 (V3 m ρ) c).arrAt 3 cfg1.N)) : sProp 𝕄) :=
      exit1 (V3 m ρ) c
    iintro ⟨Ha, HO, HY, Hrest⟩
    ihave Hj := hx $$ Ha
    icases Hj with ⟨H2, H3⟩
    imodintro
    isplitl [H2 H3 Hrest HY]
    · isplitl [H2 H3 Hrest]
      · iapply (Entails.of_eq hs.symm)
        isplitl [H2 H3]
        · isplitl [H2]; · iexact H2
          iexact H3
        iexact Hrest
      iexact HY
    unfold Pipeline.Dat.owesAt Pipeline.owesWithin
    icases HO with ⟨%W, -, HO⟩; iexists W; iexact HO

/-- @main's four segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The run with the result named: the result array ends at what region 1's write-backs leave. -/
theorem run_result : θ_run defs (onTc (τ := τ) (main (F := F))) ⟨m, fun _ => 0, ρ⟩ (fun r => ∀ c : Dev nD,
      r.2.mem ((c.tc : Thread nD τ).loc main_v3) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v3 (by decide))).trans (W4_v3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Fr

end
-- ==== Proof.KernelIdeal.Body0.lean ====
/-
  Region 0 of @main: the projection `x · W + b` on row blocks of 256. The body loads its three input blocks whole,
  computes one product and one sum, and stores the output block whole; it reads nothing it wrote and keeps nothing
  between grid points. Stated at the contents `V` the region is entered with, for any float instance.
-/
import proofs.«138782_j46694884442159_2_alg».proof.Proof.Gen.KernelIdeal.Launch
import proofs.«138782_j46694884442159_2_alg».proof.Proof.Gen.KernelIdeal.Skeleton
import proofs.«138782_j46694884442159_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not
    fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_x : Rect S256x1024 := Rect.unit (s := S256x1024) ![0, 0] S256x1024.size inb_S256x1024_S256x1024_0_0
abbrev r0_w : Rect S1024x3072 := Rect.unit (s := S1024x3072) ![0, 0] S1024x3072.size inb_S1024x3072_S1024x3072_0_0
abbrev r0_b : Rect S3072 := Rect.unit (s := S3072) ![0] S3072.size inb_S3072_S3072_0
abbrev r0_o : Rect S256x3072 := Rect.unit (s := S256x3072) ![0, 0] S256x3072.size inb_S256x3072_S256x3072_0_0

/-- What the body leaves in the output block: its one store, of the product plus the bias, over the three input blocks. -/
def out0_3 (x0 : Vec F S256x1024 .f32) (x1 : Vec F S1024x3072 .f32) (x2 : Vec F S3072 .f32) : Vec F S256x3072 .f32 :=
  View.canon [⟨r0_o, k0_pay1 (View.ld x0 r0_x) (View.ld x1 r0_w) (View.ld x2 r0_b)⟩]

/-- The one store covers the block. -/
theorem cover0_3 (p0 : Vec F S256x3072 .f32) (y : S256x3072.Idx) :
    ∃ pc ∈ ([⟨r0_o, p0⟩] : List (View.Piece (Elt F) S256x3072 .f32)), y ∈ pc.1.set :=
  View.cover_of_tiled [⟨r0_o, p0⟩] S256x3072.size (by rfl) y

set_option maxHeartbeats 1000000 in
/-- The body on whole staging buffers: the inputs' come back as they were, the output's holds `out0_3` of them. -/
theorem sound_kernel0 (c : Dev nD) (E : Set ℕ) (i : grid0.Coords) (arg1 : Memref sig .tc .vmem S256x1024 .f32) (harg1 : arg1.IsWhole) (arg2 : Memref sig .tc .vmem S1024x3072 .f32) (harg2 : arg2.IsWhole) (arg3 : Memref sig .tc .vmem S3072 .f32) (harg3 : arg3.IsWhole) (arg4 : Memref sig .tc .vmem S256x3072 .f32) (harg4 : arg4.IsWhole)
    (x0 : Vec F S256x1024 .f32) (x1 : Vec F S1024x3072 .f32) (x2 : Vec F S3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of region 0 on core `c`: the arrays as the region finds them; after the body each input's buffer
    at its block, the output's at `out0_3` of the three input blocks; the scoped rest and the generator register ride
    along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdeal.B1Defs.lean ====
/-
  Region 1 of @main: attention over the projected rows, one (batch, query block) at a time, walking the four key
  blocks in the innermost grid axis. What the three cases of the body share: the windows' blocks, the two conditions
  on the key-block coordinate in closed form (first block: reset the running maximum, normaliser and weighted sum;
  last block: divide and store), where the output window is idle, and the names of the staging and scratch buffers.
-/
import proofs.«138782_j46694884442159_2_alg».proof.Proof.KernelIdeal.Body0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The first conditional: the key-block coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second: it is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The inputs are never idle; the output is idle, and not written back, except at the last key block. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- One staging buffer of the output window, through which its contents are stated. -/
abbrev VO1_3 : View sig .tc .vmem S1x1024x1024 .f32 := (Memref.whole cc1_stg3_0 : Memref sig .tc .vmem S1x1024x1024 .f32).view
/-- Each window's current staging buffer at point `t`, as the pipeline passes it. -/
abbrev ms1_0 (t : Fin cfg1.N) : Memref sig .tc .vmem S1x1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The scratch buffers: the running maximum, the running normaliser, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The scoped buffers of the core that this region neither stages nor uses as scratch, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's invariant before its first point, conjunct by conjunct: the other scoped buffers, the three scratch
    buffers at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Fr

end
-- ==== Proof.KernelIdeal.Run1A.lean ====
/-
  Region 1, the first key block of a (batch, query block): the body first resets the running maximum to −∞ and the
  running normaliser and weighted sum to 0, whatever the scratch held, then processes the block as any other. It stores
  into the three scratch buffers only. The pieces each scratch ends with are found by running the body.
-/
import proofs.«138782_j46694884442159_2_alg».proof.Proof.KernelIdeal.B1Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the inputs at their contents, the output at contents handed back untouched, the scratch at
    anything — the body runs to the inputs as they were and each scratch with its pieces written. -/
noncomputable def kernelRun1_A (c : Dev nD) (i : grid1.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .f32) (x1 : Vec F S1x512x1024 .f32) (x2 : Vec F S1x512x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Fr

end
-- ==== Proof.KernelIdeal.Run1B.lean ====
/-
  Region 1, a middle key block (neither the first nor the last): the body rescales the running normaliser and weighted
  sum by exp(old maximum − new maximum), adds this block's terms, and keeps the new maximum; it stores into the three
  scratch buffers only. The pieces each scratch ends with are found by running the body.
-/
import proofs.«138782_j46694884442159_2_alg».proof.Proof.KernelIdeal.Run1A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the inputs at their contents, the output at contents handed back untouched, the scratch at
    what the point before left — the body runs to the inputs as they were and each scratch with its pieces written. -/
noncomputable def kernelRun1_B (c : Dev nD) (i : grid1.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .f32) (x1 : Vec F S1x512x1024 .f32) (x2 : Vec F S1x512x1024 .f32) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Fr

end
-- ==== Proof.KernelIdeal.Run1C.lean ====
/-
  Region 1, the last key block: after the block's update the body divides the weighted sum by the normaliser and
  stores the quotient into the output block. The pieces the output and each scratch end with are found by running the body.
-/
import proofs.«138782_j46694884442159_2_alg».proof.Proof.KernelIdeal.Run1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the inputs at their contents, the output at anything, the scratch at what the point before
    left — the body runs to the inputs as they were, the output and each scratch with their pieces written. -/
noncomputable def kernelRun1_C (c : Dev nD) (i : grid1.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .f32) (x1 : Vec F S1x512x1024 .f32) (x2 : Vec F S1x512x1024 .f32) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Fr

end
-- ==== Proof.KernelIdeal.Body1.lean ====
/-
  Region 1: what the scratch buffers and the output block hold point by point, the proof data, and the body obligation.
  The running maximum, normaliser and weighted sum after a point are the case's run over what the point before left
  (a first key block ignores it); the output block is written at the last key block of each (batch, query block) only.
-/
import proofs.«138782_j46694884442159_2_alg».proof.Proof.KernelIdeal.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's run at point `t`, a first key block. -/
noncomputable abbrev runA_at (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)

/-- Its pieces for scratch 0 tile the buffer, so they cover it. -/
theorem scover1_A_0 (c : Dev nD) (t : Fin cfg1.N) (h0 : t.val % 4 = 0) (h1 : ¬t.val % 4 = 3) (y : S1024x1.Idx) :
    ∃ pc ∈ (runA_at V c t h0 h1).1, y ∈ pc.1.set :=
  View.cover_of_tiledL (runA_at V c t h0 h1).1 S1024x1.size (by sl_kernel_rfl) y

/-- Its pieces for scratch 1 tile the buffer, so they cover it. -/
theorem scover1_A_1 (c : Dev nD) (t : Fin cfg1.N) (h0 : t.val % 4 = 0) (h1 : ¬t.val % 4 = 3) (y : S1024x1.Idx) :
    ∃ pc ∈ (runA_at V c t h0 h1).2.1, y ∈ pc.1.set :=
  View.cover_of_tiledL (runA_at V c t h0 h1).2.1 S1024x1.size (by sl_kernel_rfl) y

/-- Its pieces for scratch 2 tile the buffer, so they cover it. -/
theorem scover1_A_2 (c : Dev nD) (t : Fin cfg1.N) (h0 : t.val % 4 = 0) (h1 : ¬t.val % 4 = 3) (y : S1024x1024.Idx) :
    ∃ pc ∈ (runA_at V c t h0 h1).2.2.1, y ∈ pc.1.set :=
  View.cover_of_tiledL (runA_at V c t h0 h1).2.2.1 S1024x1024.size (by sl_kernel_rfl) y

/-- What it leaves in the three scratch buffers: its pieces read back. -/
def sA (c : Dev nD) (t : Fin cfg1.N) (h0 : t.val % 4 = 0) (h1 : ¬t.val % 4 = 3) : Vec F S1024x1 .f32 × Vec F S1024x1 .f32 × Vec F S1024x1024 .f32 :=
  (VS1_0.read (Elt F) (VS1_0.writes (Elt F) VS1_0.junk (runA_at V c t h0 h1).1),
   VS1_1.read (Elt F) (VS1_1.writes (Elt F) VS1_1.junk (runA_at V c t h0 h1).2.1),
   VS1_2.read (Elt F) (VS1_2.writes (Elt F) VS1_2.junk (runA_at V c t h0 h1).2.2.1))

/-- The body's run at point `t`, a middle key block (over the scratch contents `s` the point before left). -/
noncomputable abbrev runB_at (c : Dev nD) (t : Fin cfg1.N) (h0 : ¬t.val % 4 = 0) (h1 : ¬t.val % 4 = 3) (s : Vec F S1024x1 .f32 × Vec F S1024x1 .f32 × Vec F S1024x1024 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) s.1 s.2.1 s.2.2

/-- Its pieces for scratch 0 tile the buffer, so they cover it. -/
theorem scover1_B_0 (c : Dev nD) (t : Fin cfg1.N) (h0 : ¬t.val % 4 = 0) (h1 : ¬t.val % 4 = 3) (s : Vec F S1024x1 .f32 × Vec F S1024x1 .f32 × Vec F S1024x1024 .f32) (y : S1024x1.Idx) :
    ∃ pc ∈ (runB_at V c t h0 h1 s).1, y ∈ pc.1.set :=
  View.cover_of_tiledL (runB_at V c t h0 h1 s).1 S1024x1.size (by sl_kernel_rfl) y

/-- Its pieces for scratch 1 tile the buffer, so they cover it. -/
theorem scover1_B_1 (c : Dev nD) (t : Fin cfg1.N) (h0 : ¬t.val % 4 = 0) (h1 : ¬t.val % 4 = 3) (s : Vec F S1024x1 .f32 × Vec F S1024x1 .f32 × Vec F S1024x1024 .f32) (y : S1024x1.Idx) :
    ∃ pc ∈ (runB_at V c t h0 h1 s).2.1, y ∈ pc.1.set :=
  View.cover_of_tiledL (runB_at V c t h0 h1 s).2.1 S1024x1.size (by sl_kernel_rfl) y

/-- Its pieces for scratch 2 tile the buffer, so they cover it. -/
theorem scover1_B_2 (c : Dev nD) (t : Fin cfg1.N) (h0 : ¬t.val % 4 = 0) (h1 : ¬t.val % 4 = 3) (s : Vec F S1024x1 .f32 × Vec F S1024x1 .f32 × Vec F S1024x1024 .f32) (y : S1024x1024.Idx) :
    ∃ pc ∈ (runB_at V c t h0 h1 s).2.2.1, y ∈ pc.1.set :=
  View.cover_of_tiledL (runB_at V c t h0 h1 s).2.2.1 S1024x1024.size (by sl_kernel_rfl) y

/-- What it leaves in the three scratch buffers: its pieces read back. -/
def sB (c : Dev nD) (t : Fin cfg1.N) (h0 : ¬t.val % 4 = 0) (h1 : ¬t.val % 4 = 3) (s : Vec F S1024x1 .f32 × Vec F S1024x1 .f32 × Vec F S1024x1024 .f32) : Vec F S1024x1 .f32 × Vec F S1024x1 .f32 × Vec F S1024x1024 .f32 :=
  (VS1_0.read (Elt F) (VS1_0.writes (Elt F) VS1_0.junk (runB_at V c t h0 h1 s).1),
   VS1_1.read (Elt F) (VS1_1.writes (Elt F) VS1_1.junk (runB_at V c t h0 h1 s).2.1),
   VS1_2.read (Elt F) (VS1_2.writes (Elt F) VS1_2.junk (runB_at V c t h0 h1 s).2.2.1))

/-- The body's run at point `t`, the last key block (over the scratch contents `s` the point before left). -/
noncomputable abbrev runC_at (c : Dev nD) (t : Fin cfg1.N) (h0 : ¬t.val % 4 = 0) (h1 : t.val % 4 = 3) (s : Vec F S1024x1 .f32 × Vec F S1024x1 .f32 × Vec F S1024x1024 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) s.1 s.2.1 s.2.2

/-- Its pieces for scratch 0 tile the buffer, so they cover it. -/
theorem scover1_C_0 (c : Dev nD) (t : Fin cfg1.N) (h0 : ¬t.val % 4 = 0) (h1 : t.val % 4 = 3) (s : Vec F S1024x1 .f32 × Vec F S1024x1 .f32 × Vec F S1024x1024 .f32) (y : S1024x1.Idx) :
    ∃ pc ∈ (runC_at V c t h0 h1 s).2.1, y ∈ pc.1.set :=
  View.cover_of_tiledL (runC_at V c t h0 h1 s).2.1 S1024x1.size (by sl_kernel_rfl) y

/-- Its pieces for scratch 1 tile the buffer, so they cover it. -/
theorem scover1_C_1 (c : Dev nD) (t : Fin cfg1.N) (h0 : ¬t.val % 4 = 0) (h1 : t.val % 4 = 3) (s : Vec F S1024x1 .f32 × Vec F S1024x1 .f32 × Vec F S1024x1024 .f32) (y : S1024x1.Idx) :
    ∃ pc ∈ (runC_at V c t h0 h1 s).2.2.1, y ∈ pc.1.set :=
  View.cover_of_tiledL (runC_at V c t h0 h1 s).2.2.1 S1024x1.size (by sl_kernel_rfl) y

/-- Its pieces for scratch 2 tile the buffer, so they cover it. -/
theorem scover1_C_2 (c : Dev nD) (t : Fin cfg1.N) (h0 : ¬t.val % 4 = 0) (h1 : t.val % 4 = 3) (s : Vec F S1024x1 .f32 × Vec F S1024x1 .f32 × Vec F S1024x1024 .f32) (y : S1024x1024.Idx) :
    ∃ pc ∈ (runC_at V c t h0 h1 s).2.2.2.1, y ∈ pc.1.set :=
  View.cover_of_tiledL (runC_at V c t h0 h1 s).2.2.2.1 S1024x1024.size (by sl_kernel_rfl) y

/-- What it leaves in the three scratch buffers: its pieces read back. -/
def sC (c : Dev nD) (t : Fin cfg1.N) (h0 : ¬t.val % 4 = 0) (h1 : t.val % 4 = 3) (s : Vec F S1024x1 .f32 × Vec F S1024x1 .f32 × Vec F S1024x1024 .f32) : Vec F S1024x1 .f32 × Vec F S1024x1 .f32 × Vec F S1024x1024 .f32 :=
  (VS1_0.read (Elt F) (VS1_0.writes (Elt F) VS1_0.junk (runC_at V c t h0 h1 s).2.1),
   VS1_1.read (Elt F) (VS1_1.writes (Elt F) VS1_1.junk (runC_at V c t h0 h1 s).2.2.1),
   VS1_2.read (Elt F) (VS1_2.writes (Elt F) VS1_2.junk (runC_at V c t h0 h1 s).2.2.2.1))

/-- The last key block's pieces for the output tile its block, so they cover it. -/
theorem cover1_C_3 (c : Dev nD) (t : Fin cfg1.N) (h0 : ¬t.val % 4 = 0) (h1 : t.val % 4 = 3) (s : Vec F S1024x1 .f32 × Vec F S1024x1 .f32 × Vec F S1024x1024 .f32) (y : S1x1024x1024.Idx) :
    ∃ pc ∈ (runC_at V c t h0 h1 s).1, y ∈ pc.1.set :=
  View.cover_of_tiledL (runC_at V c t h0 h1 s).1 S1x1024x1024.size (by sl_kernel_rfl) y

/-- What it leaves in the output block: its pieces read back. -/
def oC (c : Dev nD) (t : Fin cfg1.N) (h0 : ¬t.val % 4 = 0) (h1 : t.val % 4 = 3) (s : Vec F S1024x1 .f32 × Vec F S1024x1 .f32 × Vec F S1024x1024 .f32) : Vec F S1x1024x1024 .f32 :=
  VO1_3.read (Elt F) (VO1_3.writes (Elt F) VO1_3.junk (runC_at V c t h0 h1 s).1)

/-- Contents nothing consults: the output block's entry at a point that stores nothing into it and does not write it back. -/
def oIdle : Vec F S1x1024x1024 .f32 := VO1_3.read (Elt F) VO1_3.junk

/-- THE ACCUMULATION. The output block and the three scratch buffers after the body at position `n`: the case the
    key-block coordinate selects, run at the point's blocks over what position `n − 1` left in the scratch. -/
def outsAt1 (c : Dev nD) : (n : ℕ) → n < cfg1.N → Vec F S1x1024x1024 .f32 × (Vec F S1024x1 .f32 × Vec F S1024x1 .f32 × Vec F S1024x1024 .f32)
  | 0, hn => (oIdle, sA V c ⟨0, hn⟩ (Nat.zero_mod _) (by intro h; (try dsimp only at h); omega))
  | n + 1, hn =>
    if h0 : (n + 1) % 4 = 0 then
      if h1 : (n + 1) % 4 = 3 then
        False.elim (by omega)
      else (oIdle, sA V c ⟨n + 1, hn⟩ h0 h1)
    else
      if h1 : (n + 1) % 4 = 3 then
        (oC V c ⟨n + 1, hn⟩ h0 h1 (outsAt1 c n (Nat.lt_of_succ_lt hn)).2, sC V c ⟨n + 1, hn⟩ h0 h1 (outsAt1 c n (Nat.lt_of_succ_lt hn)).2)
      else
        (oIdle, sB V c ⟨n + 1, hn⟩ h0 h1 (outsAt1 c n (Nat.lt_of_succ_lt hn)).2)

theorem outsAt1_A (c : Dev nD) (t : Fin cfg1.N) (h0 : t.val % 4 = 0) (h1 : ¬t.val % 4 = 3) :
    outsAt1 V c t.val t.isLt = (oIdle, sA V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (oIdle, sB V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (oC V c t h0 h1 (outsAt1 V c (t.val - 1) (Nat.lt_of_le_of_lt (Nat.sub_le _ _) t.isLt)).2, sC V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scratch at anything; afterwards each scratch
    at what the point before left in it; the other scoped buffers and the generator register ride along. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-- The proof data of region 1 on core `c`: the arrays as the region finds them; after the body each input's buffer at
    its block and the output's at `outsAt1`'s first component; the invariant `PhiS`; nothing owed; the projected array,
    which the three input windows all read, dealt among them in three shares that make the whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the key-block coordinate says which case the point is
    in; the invariant hands the body the scratch at what the point before left (at anything at the first point) and takes
    it back at this point's contents; the output buffer comes back untouched except at a last key block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sA; (try dsimp only)
      by_cases hz : t.val = 0
      · rw [PhiS_castSucc V c t, PhiS_zero V c _ _ hz, PhiA1_eq]
        iintro ⟨⟨⟨HR0, HR1, HR2, HR3, HR4, HR5, HS0, HS1, HS2⟩, Hg⟩, Ho, ⟨%d0, H0⟩, ⟨%d1, H1⟩, ⟨%d2, H2⟩, ⟨%d3, H3⟩⟩
        iapply ((runA_at V c t h0 h1).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR0 HR1 HR2 HR3 HR4 HR5 HS0 HS1 HS2 Hg]
        · isplitl [HR0 HR1 HR2 HR3 HR4 HR5 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS0]
            · unfold owns; iexists _; isplitr
              swap; · iexact HS0
              ipureintro; exact View.read_writes_of_cover _ _ _ _ _ (scover1_A_0 V c t h0 h1)
            isplitl [HS1]
            · unfold owns; iexists _; isplitr
              swap; · iexact HS1
              ipureintro; exact View.read_writes_of_cover _ _ _ _ _ (scover1_A_1 V c t h0 h1)
            unfold owns; iexists _; isplitr
            swap; · iexact HS2
            ipureintro; exact View.read_writes_of_cover _ _ _ _ _ (scover1_A_2 V c t h0 h1)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HR0, HR1, HR2, HR3, HR4, HR5, HS0, HS1, HS2⟩, Hg⟩, Ho, ⟨%d0, H0⟩, ⟨%d1, H1⟩, ⟨%d2, H2⟩, ⟨%d3, H3⟩⟩
        iapply ((runA_at V c t h0 h1).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HR0 HR1 HR2 HR3 HR4 HR5 HS0 HS1 HS2 Hg]
        · isplitl [HR0 HR1 HR2 HR3 HR4 HR5 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS0]
            · unfold owns; iexists _; isplitr
              swap; · iexact HS0
              ipureintro; exact View.read_writes_of_cover _ _ _ _ _ (scover1_A_0 V c t h0 h1)
            isplitl [HS1]
            · unfold owns; iexists _; isplitr
              swap; · iexact HS1
              ipureintro; exact View.read_writes_of_cover _ _ _ _ _ (scover1_A_1 V c t h0 h1)
            unfold owns; iexists _; isplitr
            swap; · iexact HS2
            ipureintro; exact View.read_writes_of_cover _ _ _ _ _ (scover1_A_2 V c t h0 h1)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold oC sC; (try dsimp only)
      rw [PhiS_castSucc V c t, PhiS_pos V c _ _ hz]
      iintro ⟨⟨⟨HR0, HR1, HR2, HR3, HR4, HR5, HS0, HS1, HS2⟩, Hg⟩, Ho, ⟨%d0, H0⟩, ⟨%d1, H1⟩, ⟨%d2, H2⟩, ⟨%d3, H3⟩⟩
      iapply ((runC_at V c t h0 h1 _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HR0 HR1 HR2 HR3 HR4 HR5 HS0 HS1 HS2 Hg]
      · isplitl [HR0 HR1 HR2 HR3 HR4 HR5 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · unfold owns; iexists _; isplitr
            swap; · iexact HS0
            ipureintro; exact View.read_writes_of_cover _ _ _ _ _ (scover1_C_0 V c t h0 h1 _)
          isplitl [HS1]
          · unfold owns; iexists _; isplitr
            swap; · iexact HS1
            ipureintro; exact View.read_writes_of_cover _ _ _ _ _ (scover1_C_1 V c t h0 h1 _)
          unfold owns; iexists _; isplitr
          swap; · iexact HS2
          ipureintro; exact View.read_writes_of_cover _ _ _ _ _ (scover1_C_2 V c t h0 h1 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 V c t h0 h1 _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sB; (try dsimp only)
      rw [PhiS_castSucc V c t, PhiS_pos V c _ _ hz]
      iintro ⟨⟨⟨HR0, HR1, HR2, HR3, HR4, HR5, HS0, HS1, HS2⟩, Hg⟩, Ho, ⟨%d0, H0⟩, ⟨%d1, H1⟩, ⟨%d2, H2⟩, ⟨%d3, H3⟩⟩
      iapply ((runB_at V c t h0 h1 _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR0 HR1 HR2 HR3 HR4 HR5 HS0 HS1 HS2 Hg]
      · isplitl [HR0 HR1 HR2 HR3 HR4 HR5 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · unfold owns; iexists _; isplitr
            swap; · iexact HS0
            ipureintro; exact View.read_writes_of_cover _ _ _ _ _ (scover1_B_0 V c t h0 h1 _)
          isplitl [HS1]
          · unfold owns; iexists _; isplitr
            swap; · iexact HS1
            ipureintro; exact View.read_writes_of_cover _ _ _ _ _ (scover1_B_1 V c t h0 h1 _)
          unfold owns; iexists _; isplitr
          swap; · iexact HS2
          ipureintro; exact View.read_writes_of_cover _ _ _ _ _ (scover1_B_2 V c t h0 h1 _)
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back, the scratch contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨HR0, HR1, HR2, HR3, HR4, HR5, HS0, HS1, HS2⟩, Hg⟩
  isplitl [HR0 HR1 HR2 HR3 HR4 HR5 HS0 HS1 HS2]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    isplitl [HS1]; · iexists _; iexact HS1
    iexists _; iexact HS2
  iexact Hg

end Cert.KernelIdeal.Fr

end
-- ==== Proof.KernelIdeal.Pieces.lean ====
/-
  Region 1: what each case of the body leaves, as the skeleton's arithmetic of the point's blocks and of what the point
  before left. One step takes the running maximum m, normaliser l and weighted sum a to
    m' = max m (row maxima of the block's scores),  l' = exp(m − m')·l + row sums of exp(scores − m'),
    a' = exp(m − m')·a + exp(scores − m') · values;
  a first key block starts from (−∞, 0, 0); the last one also stores a' / l'.
-/
import proofs.«138782_j46694884442159_2_alg».proof.Proof.KernelIdeal.Body1

import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A whole scratch buffer read back through its view holds what was put there. -/
theorem read_unread_whole {S : Shape} {e : EltTy} (M : Memref sig .tc .vmem S e) (h : M.IsWhole) (X : S.Idx → Elt F e) :
    View.read (Elt F) M.view (h.unread X) = X := h.read_unread X

theorem hz2 : (![0, 0] : Fin 2 → Nat) = fun _ => 0 := funext fun a => by fin_cases a <;> rfl
theorem hz3 : (![0, 0, 0] : Fin 3 → Nat) = fun _ => 0 := funext fun a => by fin_cases a <;> rfl

/-- One step of the running softmax on the query block `q`, key block `k`, value block `v`, from the state `s`. -/
def stepS (q : Vec F S1x1024x1024 .f32) (k v : Vec F S1x512x1024 .f32) (s : Vec F S1024x1 .f32 × Vec F S1024x1 .f32 × Vec F S1024x1024 .f32) : Vec F S1024x1 .f32 × Vec F S1024x1 .f32 × Vec F S1024x1024 .f32 :=
  (k1_pay2 (k1_pay9 q k s.1), k1_pay12 q k s.1 s.1 s.2.1, k1_pay1 (k1_pay7 v) (k1_pay10 q k s.1 s.1) (k1_pay11 q k s.1) s.2.2)

/-- The state a first key block starts from: −∞, 0, 0. -/
def initS : Vec F S1024x1 .f32 × Vec F S1024x1 .f32 × Vec F S1024x1024 .f32 := (k1_pay4, k1_pay5, k1_pay6)

/-- The output block the last key block stores: the weighted sum over the normaliser. -/
def finS (s : Vec F S1024x1 .f32 × Vec F S1024x1 .f32 × Vec F S1024x1024 .f32) : Vec F S1x1024x1024 .f32 := k1_pay3 s.2.2 s.2.1

local macro "open_piece" : tactic => `(tactic| (
  sl_unfold_words
  simp only [View.readCov_unit_zero (S := S1024x1) _ hz2, View.readCov_unit_zero (S := S1024x1024) _ hz2,
    View.readAt_eq_ld, Memref.IsWhole.read_unread, read_unread_whole scM1_0, read_unread_whole scM1_1, read_unread_whole scM1_2,
    View.ld_unit_zero (S := S1x1024x1024) hz3, View.ld_unit_zero (S := S1x512x1024) hz3,
    View.ld_unit_zero (S := S1024x1) hz2, View.ld_unit_zero (S := S1024x1024) hz2]))

theorem sB_eq (c : Dev nD) (t : Fin cfg1.N) (h0 : ¬t.val % 4 = 0) (h1 : ¬t.val % 4 = 3) (s : Vec F S1024x1 .f32 × Vec F S1024x1 .f32 × Vec F S1024x1024 .f32) :
    sB V c t h0 h1 s = stepS (iblk1 V c 0 t) (iblk1 V c 1 t) (iblk1 V c 2 t) s := by
  unfold sB stepS
  refine Prod.ext ?_ (Prod.ext ?_ ?_)
  · dsimp only
    rw [View.read_writes_eq_canon _ _ _ (scover1_B_0 V c t h0 h1 s)]
    unfold runB_at kernelRun1_B
    dsimp only
    open_piece
    exact View.canon_cons_unit_zero (S := S1024x1) hz2 _ _ _
  · dsimp only
    rw [View.read_writes_eq_canon _ _ _ (scover1_B_1 V c t h0 h1 s)]
    unfold runB_at kernelRun1_B
    dsimp only
    open_piece
    exact View.canon_cons_unit_zero (S := S1024x1) hz2 _ _ _
  · dsimp only
    rw [View.read_writes_eq_canon _ _ _ (scover1_B_2 V c t h0 h1 s)]
    unfold runB_at kernelRun1_B
    dsimp only
    open_piece
    exact View.canon_cons_unit_zero (S := S1024x1024) hz2 _ _ _

theorem sC_eq (c : Dev nD) (t : Fin cfg1.N) (h0 : ¬t.val % 4 = 0) (h1 : t.val % 4 = 3) (s : Vec F S1024x1 .f32 × Vec F S1024x1 .f32 × Vec F S1024x1024 .f32) :
    sC V c t h0 h1 s = stepS (iblk1 V c 0 t) (iblk1 V c 1 t) (iblk1 V c 2 t) s := by
  unfold sC stepS
  refine Prod.ext ?_ (Prod.ext ?_ ?_)
  · dsimp only
    rw [View.read_writes_eq_canon _ _ _ (scover1_C_0 V c t h0 h1 s)]
    unfold runC_at kernelRun1_C
    dsimp only
    open_piece
    exact View.canon_cons_unit_zero (S := S1024x1) hz2 _ _ _
  · dsimp only
    rw [View.read_writes_eq_canon _ _ _ (scover1_C_1 V c t h0 h1 s)]
    unfold runC_at kernelRun1_C
    dsimp only
    open_piece
    exact View.canon_cons_unit_zero (S := S1024x1) hz2 _ _ _
  · dsimp only
    rw [View.read_writes_eq_canon _ _ _ (scover1_C_2 V c t h0 h1 s)]
    unfold runC_at kernelRun1_C
    dsimp only
    open_piece
    exact View.canon_cons_unit_zero (S := S1024x1024) hz2 _ _ _

theorem sA_eq (c : Dev nD) (t : Fin cfg1.N) (h0 : t.val % 4 = 0) (h1 : ¬t.val % 4 = 3) :
    sA V c t h0 h1 = stepS (iblk1 V c 0 t) (iblk1 V c 1 t) (iblk1 V c 2 t) initS := by
  unfold sA stepS initS
  refine Prod.ext ?_ (Prod.ext ?_ ?_)
  · dsimp only
    rw [View.read_writes_eq_canon _ _ _ (scover1_A_0 V c t h0 h1)]
    unfold runA_at kernelRun1_A
    dsimp only
    open_piece
    exact View.canon_cons_unit_zero (S := S1024x1) hz2 _ _ _
  · dsimp only
    rw [View.read_writes_eq_canon _ _ _ (scover1_A_1 V c t h0 h1)]
    unfold runA_at kernelRun1_A
    dsimp only
    open_piece
    exact View.canon_cons_unit_zero (S := S1024x1) hz2 _ _ _
  · dsimp only
    rw [View.read_writes_eq_canon _ _ _ (scover1_A_2 V c t h0 h1)]
    unfold runA_at kernelRun1_A
    dsimp only
    open_piece
    exact View.canon_cons_unit_zero (S := S1024x1024) hz2 _ _ _

theorem oC_eq (c : Dev nD) (t : Fin cfg1.N) (h0 : ¬t.val % 4 = 0) (h1 : t.val % 4 = 3) (s : Vec F S1024x1 .f32 × Vec F S1024x1 .f32 × Vec F S1024x1024 .f32) :
    oC V c t h0 h1 s = finS (stepS (iblk1 V c 0 t) (iblk1 V c 1 t) (iblk1 V c 2 t) s) := by
  unfold oC finS stepS
  dsimp only
  rw [View.read_writes_eq_canon _ _ _ (cover1_C_3 V c t h0 h1 s)]
  unfold runC_at kernelRun1_C
  dsimp only
  open_piece
  exact View.canon_cons_unit_zero (S := S1x1024x1024) hz3 _ _ _

end Cert.KernelIdeal.Fr

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibDotT.lean ====
/- A matrix product against a transposed right operand, [R, K] × [C, K] → [R, C] (both operands contracted along their second
   axis), into a zero accumulator, read at an index over the extended reals: entry (p, q) is the sum over k of
   lhs(p, k) · rhs(q, k). For any dimension record with these lists. Names no program. -/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

namespace Cert.LibDotT

open Idealize.ShloMosaic Idealize.ShloMosaic.ValueIdx

/-- The dimension numbers of a `[R, K] × [C, K] → [R, C]` product: the second axis of each operand is contracted. -/
abbrev dotT (R K C : Nat)
    (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ where
  lhsContracting := [1]
  rhsContracting := [1]
  lhsNonContracting := [0]
  rhsNonContracting := [0]
  lhsBatch := []
  rhsBatch := []
  wf := wf

section
variable {R K C : Nat} (wf : DotDims.WF ⟨2, ![R, K]⟩ ⟨2, ![C, K]⟩ ⟨2, ![R, C]⟩ [1] [1] [0] [0] [] [])

/-- The left operand's index for output `(p, q)` and contraction coordinate `k` is `(p, k)`. -/
theorem dotT_lhsIdx (p : Fin R) (q : Fin C) (k : Fin K) :
    (dotT R K C wf).lhsIdx (ix2 p q) ((contrEquiv1 (dotT R K C wf) K rfl rfl).symm k) = ix2 p k := by
  have hk := contrEquiv1_symm_val (dotT R K C wf) K rfl rfl k
  funext a
  refine Fin.ext ?_
  match a with
  | ⟨0, _⟩ =>
    show ((dotT R K C wf).lhsIdx (ix2 p q) ((contrEquiv1 (dotT R K C wf) K rfl rfl).symm k) 0).val = p.val
    unfold DotDims.lhsIdx
    rw [dif_neg (show ¬(0 : Fin 2) ∈ (dotT R K C wf).lhsBatch from List.not_mem_nil),
      dif_pos (show (0 : Fin 2) ∈ (dotT R K C wf).lhsNonContracting from List.mem_singleton.mpr rfl)]
    rfl
  | ⟨1, _⟩ =>
    exact ((dotT R K C wf).lhsIdx_val_of_single (cl := (1 : Fin 2)) rfl (ix2 p q) _).trans hk

/-- The right operand's index for output `(p, q)` and contraction coordinate `k` is `(q, k)`. -/
theorem dotT_rhsIdx (p : Fin R) (q : Fin C) (k : Fin K) :
    (dotT R K C wf).rhsIdx (ix2 p q) ((contrEquiv1 (dotT R K C wf) K rfl rfl).symm k) = ix2 q k := by
  have hk := contrEquiv1_symm_val (dotT R K C wf) K rfl rfl k
  funext a
  refine Fin.ext ?_
  match a with
  | ⟨0, _⟩ =>
    show ((dotT R K C wf).rhsIdx (ix2 p q) ((contrEquiv1 (dotT R K C wf) K rfl rfl).symm k) 0).val = q.val
    unfold DotDims.rhsIdx
    rw [dif_neg (show ¬(0 : Fin 2) ∈ (dotT R K C wf).rhsBatch from List.not_mem_nil),
      dif_pos (show (0 : Fin 2) ∈ (dotT R K C wf).rhsNonContracting from List.mem_singleton.mpr rfl)]
    rfl
  | ⟨1, _⟩ =>
    exact ((dotT R K C wf).rhsIdx_val_of_single (cr := (1 : Fin 2)) rfl (ix2 p q) _).trans hk

/-- THE PRODUCT AGAINST THE TRANSPOSE INTO A ZERO ACCUMULATOR AT `(p, q)`: the sum over `k` of `lhs (p, k) * rhs (q, k)`. -/
theorem matmulT_zero_apply {φ₁ φ₂ : FTy} (prec : Option ContractPrecision)
    (lhs : FVec Ideal ⟨2, ![R, K]⟩ φ₁) (rhs : FVec Ideal ⟨2, ![C, K]⟩ φ₂) (p : Fin R) (q : Fin C) :
    FloatOps.matmul (dotT R K C wf) prec lhs rhs (constant ⟨2, ![R, C]⟩ .f32 0x00000000#32) (ix2 p q)
      = ∑ k : Fin K, lhs (ix2 p k) * rhs (ix2 q k) := by
  rw [Ideal.matmul_constant_zero_apply, ← Equiv.sum_comp (contrEquiv1 (dotT R K C wf) K rfl rfl).symm]
  refine Finset.sum_congr rfl fun k _ => ?_
  rw [dotT_lhsIdx wf p q k, dotT_rhsIdx wf p q k]

end

end Cert.LibDotT

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«138782_j46694884442159_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.ScaleConst.lean ====
import Idealize.ShloMosaic.PureOps.Ideal

/-!
# The float constants of the scaled scores, as extended reals

The binary32 patterns of `1`, `1024`, `1/32` and `-∞` denote those extended reals, and
`1 / sqrt 1024 = 1/32` because `32² = 1024`.
-/

namespace ScaleConst
open Idealize.ShloMosaic

/-- The pattern `0x3F800000` (exponent field 127, zero fraction) denotes `2²³ · 2⁻²³ = 1`. -/
theorem one_bits : Ideal.ofBits .f32 0x3F800000#32 = ((1 : ℝ) : EReal) := by
  simp [Ideal.ofBits, Ideal.ieee, -EReal.coe_mul]; norm_num

/-- The pattern `0x44800000` (exponent field 137, zero fraction) denotes `2²³ · 2⁻¹³ = 1024`. -/
theorem k1024_bits : Ideal.ofBits .f32 0x44800000#32 = ((1024 : ℝ) : EReal) := by
  simp [Ideal.ofBits, Ideal.ieee, -EReal.coe_mul]; norm_num

/-- The pattern `0x3D000000` (exponent field 122, zero fraction) denotes `2²³ · 2⁻²⁸ = 1/32`. -/
theorem scale_bits : Ideal.ofBits .f32 0x3D000000#32 = ((1 / 32 : ℝ) : EReal) := by
  simp [Ideal.ofBits, Ideal.ieee, -EReal.coe_mul]; norm_num

/-- The pattern `0xFF800000` (sign set, exponent field all ones, zero fraction) denotes `-∞`. -/
theorem neg_inf_bits : Ideal.ofBits .f32 0xFF800000#32 = (⊥ : EReal) := by
  simp [Ideal.ofBits, Ideal.ieee]

/-- `1 / sqrt 1024 = 1/32`, since `sqrt 1024 = sqrt (32²) = 32`. -/
theorem scale_eq :
    Ideal.div (Ideal.ofBits .f32 0x3F800000#32) (Ideal.sqrt (Ideal.ofBits .f32 0x44800000#32))
      = Ideal.ofBits .f32 0x3D000000#32 := by
  rw [one_bits, k1024_bits, scale_bits]
  have hs : Real.sqrt 1024 = 32 := by
    rw [show (1024 : ℝ) = 32 ^ 2 by norm_num]
    exact Real.sqrt_sq (by norm_num)
  rw [Ideal.sqrt_coe, if_neg (by norm_num), hs, Ideal.div_coe (by norm_num), ← EReal.coe_mul]
  norm_num

end ScaleConst
-- ==== Proof.PayIdx.lean ====
import proofs.«138782_j46694884442159_2_alg».proof.Proof.Gen.KernelIdeal.Skeleton
import proofs.«138782_j46694884442159_2_alg».proof.Proof.LibPlainDot
import proofs.«138782_j46694884442159_2_alg».proof.Proof.LibDotT
import proofs.«138782_j46694884442159_2_alg».proof.Proof.LibRowReduce
import proofs.«138782_j46694884442159_2_alg».proof.Proof.LibColumn
import proofs.«138782_j46694884442159_2_alg».proof.Proof.ScaleConst
import Idealize.ShloMosaic.PureOps.Ideal.Laws
import Idealize.ShloMosaic.Lib.Pipeline.Value
import Idealize.ShloMosaic.Lib.ValueIdx
import Idealize.ShloMosaic.Lib.ValueLayout

/-!
# The kernel's arithmetic, read at an index on the extended reals

Each body's pure value, at explicit coordinates: the projection block is a row of the product plus the bias;
one attention step computes the scaled scores of a block of keys, the new running maximum, the rescaling factor
`exp (old maximum - new maximum)`, the block's weights `exp (score - new maximum)`, the new running normaliser and
the new running weighted sum; the last step divides the weighted sum by the normaliser.  A change of float format
is the identity on the extended reals, and a cast that adds or drops a unit axis only renames indices.
-/

noncomputable section

namespace Cert.KernelIdeal.Pay

open Cert.KernelIdeal Cert.KernelIdeal.Gen Idealize.ShloMosaic Idealize.ShloMosaic.ValueIdx

/-- The projection block at (p, d): `Σ_k x(p, k) · W(k, d) + bias(d)`. -/
theorem k0_pay1_apply (v0 : Vec Ideal S256x1024 .f32) (v3 : Vec Ideal S1024x3072 .f32) (v6 : Vec Ideal S3072 .f32)
    (p : Fin 256) (d : Fin 3072) :
    k0_pay1 v0 v3 v6 (ix2 p d) = (∑ k : Fin 1024, v0 (ix2 p k) * v3 (ix2 k d)) + v6 (ix1 d) := by
  unfold k0_pay1
  refine (addf_apply _ _ _).trans ?_
  refine congrArg₂ (· + ·) ?_ ?_
  · refine (Cert.LibPlainDot.matmul_zero_apply dot_S256x1024_S1024x3072_S256x3072_1_0_0_1_n_n_wf none _ _ p d).trans ?_
    refine Finset.sum_congr rfl fun k _ => ?_
    rw [truncf_apply, truncf_apply, shapeCast_self]
  · exact (broadcastTo_1b_ab_apply _ _ p d).trans (shapeCast_a_1a_apply v6 _ 0 d)

/-- The scaled scores of the block at (p, u): `(Σ_k q(p, k) · key(u, k)) · 2⁻⁵`. -/
theorem pay8_apply (v3 : Vec Ideal S1x1024x1024 .f32) (v6 : Vec Ideal S1x512x1024 .f32) (p : Fin 1024) (u : Fin 512) :
    k1_pay8 v3 v6 (ix2 p u)
      = (∑ k : Fin 1024, v3 (ix3 (0 : Fin 1) p k) * v6 (ix3 (0 : Fin 1) u k)) * Ideal.ofBits .f32 0x3D000000#32 := by
  unfold k1_pay8
  refine (mulf_apply _ _ _).trans ?_
  refine congrArg₂ (· * ·) ?_ rfl
  refine (Cert.LibDotT.matmulT_zero_apply dot_S1024x1024_S512x1024_S1024x512_1_1_0_0_n_n_wf none _ _ p u).trans ?_
  refine Finset.sum_congr rfl fun k _ => ?_
  rw [truncf_apply, truncf_apply, shapeCast_1ab_ab_apply, shapeCast_1ab_ab_apply]

/-- The new running weighted sum at (p, c): the old one rescaled plus the block's `Σ_u weight(p, u) · value(u, c)`. -/
theorem pay1_apply (v11 : FVec Ideal S512x1024 .bf16) (v21 : FVec Ideal S1024x1 .f32) (v24 : FVec Ideal S1024x512 .f32)
    (v33 : Vec Ideal S1024x1024 .f32) (p : Fin 1024) (c : Fin 1024) :
    k1_pay1 v11 v21 v24 v33 (ix2 p c)
      = v21 (ix2 p (0 : Fin 1)) * v33 (ix2 p c) + ∑ u : Fin 512, v24 (ix2 p u) * v11 (ix2 u c) := by
  unfold k1_pay1
  rw [shapeCast_self]
  refine (addf_apply _ _ _).trans ?_
  refine congrArg₂ (· + ·) ?_ ?_
  · refine (mulf_apply _ _ _).trans ?_
    exact congrArg (· * v33 (ix2 p c)) (Cert.LibColumn.broadcastTo_a1_ab_apply v21 _ p c)
  · refine (Cert.LibPlainDot.matmul_zero_apply dot_S1024x512_S512x1024_S1024x1024_1_0_0_1_n_n_wf none _ _ p c).trans ?_
    refine Finset.sum_congr rfl fun k _ => ?_
    rw [truncf_apply]

/-- The new running maximum of row p: the old one against the block's largest score. -/
theorem pay9_apply (v3 : Vec Ideal S1x1024x1024 .f32) (v6 : Vec Ideal S1x512x1024 .f32) (v15 : Vec Ideal S1024x1 .f32)
    (p : Fin 1024) :
    k1_pay9 v3 v6 v15 (ix2 p (0 : Fin 1))
      = max (v15 (ix2 p (0 : Fin 1))) (Finset.univ.sup fun u : Fin 512 => k1_pay8 v3 v6 (ix2 p u)) := by
  unfold k1_pay9
  refine (maximumf_apply _ _ _).trans ?_
  refine congrArg (max (v15 (ix2 p (0 : Fin 1)))) ?_
  refine (Cert.LibColumn.shapeCast_a_a1_apply _ shapeCasts_S1024_S1024x1 p 0).trans ?_
  refine (Cert.LibRowReduce.rowMax_apply (k1_pay8 v3 v6) _ reduces_S1024x512_S1024 _ _ p).trans ?_
  rw [Ideal.ofBits_def, ScaleConst.neg_inf_bits]
  rfl

/-- The new running normaliser of row p: the old one rescaled plus the block's weights summed. -/
theorem pay12_apply (v3 : Vec Ideal S1x1024x1024 .f32) (v6 : Vec Ideal S1x512x1024 .f32) (v15 : Vec Ideal S1024x1 .f32)
    (v19 : Vec Ideal S1024x1 .f32) (v25 : Vec Ideal S1024x1 .f32) (p : Fin 1024) :
    k1_pay12 v3 v6 v15 v19 v25 (ix2 p (0 : Fin 1))
      = k1_pay10 v3 v6 v15 v19 (ix2 p (0 : Fin 1)) * v25 (ix2 p (0 : Fin 1))
        + ∑ u : Fin 512, k1_pay11 v3 v6 v15 (ix2 p u) := by
  unfold k1_pay12
  rw [shapeCast_self]
  refine (addf_apply _ _ _).trans ?_
  refine congrArg₂ (· + ·) (mulf_apply _ _ _) ?_
  refine (Cert.LibColumn.shapeCast_a_a1_apply _ shapeCasts_S1024_S1024x1 p 0).trans ?_
  exact Cert.LibRowReduce.rowSum_apply (k1_pay11 v3 v6 v15) _ reduces_S1024x512_S1024 _ _ p

/-- The rescaling factor of row p: `exp (old maximum - new maximum)`. -/
theorem pay10_apply (v3 : Vec Ideal S1x1024x1024 .f32) (v6 : Vec Ideal S1x512x1024 .f32) (v15 : Vec Ideal S1024x1 .f32)
    (v19 : Vec Ideal S1024x1 .f32) (p : Fin 1024) :
    k1_pay10 v3 v6 v15 v19 (ix2 p (0 : Fin 1))
      = Ideal.exp (v19 (ix2 p (0 : Fin 1)) - k1_pay9 v3 v6 v15 (ix2 p (0 : Fin 1))) := by
  unfold k1_pay10
  rfl

/-- The block's weight at (p, u): `exp (score - new maximum)`. -/
theorem pay11_apply (v3 : Vec Ideal S1x1024x1024 .f32) (v6 : Vec Ideal S1x512x1024 .f32) (v15 : Vec Ideal S1024x1 .f32)
    (p : Fin 1024) (u : Fin 512) :
    k1_pay11 v3 v6 v15 (ix2 p u)
      = Ideal.exp (k1_pay8 v3 v6 (ix2 p u) - k1_pay9 v3 v6 v15 (ix2 p (0 : Fin 1))) := by
  unfold k1_pay11
  refine congrArg Ideal.exp ?_
  refine (subf_apply _ _ _).trans ?_
  exact congrArg (k1_pay8 v3 v6 (ix2 p u) - ·) (Cert.LibColumn.broadcastTo_a1_ab_apply (k1_pay9 v3 v6 v15) _ p u)

/-- The block of values at (u, c), its unit axis dropped. -/
theorem pay7_apply (v9 : Vec Ideal S1x512x1024 .f32) (u : Fin 512) (c : Fin 1024) :
    k1_pay7 v9 (ix2 u c) = v9 (ix3 (0 : Fin 1) u c) := by
  unfold k1_pay7
  exact shapeCast_1ab_ab_apply v9 shapeCasts_S1x512x1024_S512x1024 u c

/-- A cast to the same shape is the identity. -/
theorem pay2_apply (v18 : FVec Ideal S1024x1 .f32) (j : S1024x1.Idx) : k1_pay2 v18 j = v18 j := by
  unfold k1_pay2
  rw [shapeCast_self]

/-- The last step at (p, c): the running weighted sum divided by the running normaliser of row p. -/
theorem pay3_apply (v48 : Vec Ideal S1024x1024 .f32) (v49 : Vec Ideal S1024x1 .f32) (p c : Fin 1024) :
    k1_pay3 v48 v49 (ix3 (0 : Fin 1) p c) = Ideal.div (v48 (ix2 p c)) (v49 (ix2 p (0 : Fin 1))) := by
  unfold k1_pay3
  refine (shapeCast_ab_1ab_apply _ _ (0 : Fin 1) p c).trans ?_
  refine (divf_apply _ _ _).trans ?_
  exact congrArg (Ideal.div (v48 (ix2 p c))) (Cert.LibColumn.broadcastTo_a1_ab_apply v49 _ p c)

/-- The initial running maximum is `-∞`. -/
theorem pay4_apply (j : S1024x1.Idx) : k1_pay4 (F := Ideal) j = (⊥ : EReal) := by
  unfold k1_pay4
  rw [shapeCast_self]
  exact ScaleConst.neg_inf_bits

/-- The initial running normaliser is `0`. -/
theorem pay5_apply (j : S1024x1.Idx) : k1_pay5 (F := Ideal) j = 0 := by
  unfold k1_pay5
  rw [shapeCast_self]
  exact Ideal.ofBits_zero_f32

/-- The initial running weighted sum is `0`. -/
theorem pay6_apply (j : S1024x1024.Idx) : k1_pay6 (F := Ideal) j = 0 := by
  unfold k1_pay6
  rw [shapeCast_self]
  exact Ideal.ofBits_zero_f32

end Cert.KernelIdeal.Pay

end
-- ==== Proof.LibOnlineSoftmax.lean ====
import Idealize.ShloMosaic.PureOps.Ideal

/-!
# The online-softmax algebra over the extended reals

A running triple `(m, l, a)` summarises a finite set `J` of keys with real scores `s` and real
values `v`: `m` is the maximum score (`⊥` when `J` is empty), `l = Σ exp (s i - m)` and
`a = Σ exp (s i - m) · v i`.  Absorbing a further block of keys rescales the old `l` and `a` by
`exp (m - m')`, where `m'` is the new maximum, and adds the block's own terms; after all keys
`a / l` is the softmax-weighted sum of `v`.  All algebra is carried out in `ℝ` and coerced, since
multiplication on `EReal` does not distribute over addition at the infinities.
-/

namespace OnlineSoftmax
open Idealize.ShloMosaic

variable {ι : Type*} [DecidableEq ι]

/-- The coercion `ℝ → EReal` commutes with finite sums. -/
theorem coe_sum {α : Type*} (J : Finset α) (f : α → ℝ) :
    ((∑ i ∈ J, f i : ℝ) : EReal) = ∑ i ∈ J, (f i : EReal) := by
  classical
  induction J using Finset.induction_on with
  | empty => simp
  | insert a J ha ih => rw [Finset.sum_insert ha, Finset.sum_insert ha, EReal.coe_add, ih]

/-- The supremum of finitely many real numbers over a nonempty index set, taken in `EReal`,
    is (the coercion of) a real number: it is attained. -/
theorem sup_coe_real {α : Type*} (s : α → ℝ) (J : Finset α) (hJ : J.Nonempty) :
    ∃ r : ℝ, (J.sup fun i => (s i : EReal)) = (r : EReal) := by
  obtain ⟨i, _, hi⟩ := Finset.exists_mem_eq_sup J hJ (fun i => (s i : EReal))
  exact ⟨s i, hi⟩

/-- `exp (x - y)` for real `x`, `y` is the coercion of the real exponential. -/
theorem exp_sub_coe (x y : ℝ) :
    Ideal.exp ((x : EReal) - (y : EReal)) = ((Real.exp (x - y) : ℝ) : EReal) := by
  rw [← EReal.coe_sub, Ideal.exp_coe]

/-- Rescaling: if `m` is the maximum of the scores in `J` and `r'` is any real, then
    `exp (m - r') · Σ_{i ∈ J} exp (s i - m) · w i = Σ_{i ∈ J} exp (s i - r') · w i`.
    For empty `J` both sides are `0`; otherwise `m` is real and this is
    `exp (m - r') · exp (s i - m) = exp (s i - r')` summed in `ℝ`. -/
theorem rescale {α : Type*} (s w : α → ℝ) (J : Finset α) (m : EReal) (r' : ℝ)
    (hm : m = J.sup fun i => (s i : EReal)) :
    Ideal.exp (m - (r' : EReal)) * ∑ i ∈ J, Ideal.exp ((s i : EReal) - m) * (w i : EReal)
      = ∑ i ∈ J, Ideal.exp ((s i : EReal) - (r' : EReal)) * (w i : EReal) := by
  rcases J.eq_empty_or_nonempty with hJ | hJ
  · subst hJ; simp
  · obtain ⟨r, hr⟩ := sup_coe_real s J hJ
    rw [hm, hr]
    simp only [exp_sub_coe, ← EReal.coe_mul, ← coe_sum]
    rw [Finset.mul_sum]
    congr 1
    refine Finset.sum_congr rfl fun i _ => ?_
    rw [← mul_assoc, ← Real.exp_add]
    congr 2
    ring

/-- The same rescaling for the normaliser (weights `1`). -/
theorem rescale_one {α : Type*} (s : α → ℝ) (J : Finset α) (m : EReal) (r' : ℝ)
    (hm : m = J.sup fun i => (s i : EReal)) :
    Ideal.exp (m - (r' : EReal)) * ∑ i ∈ J, Ideal.exp ((s i : EReal) - m)
      = ∑ i ∈ J, Ideal.exp ((s i : EReal) - (r' : EReal)) := by
  have h := rescale s (fun _ => (1 : ℝ)) J m r' hm
  simpa using h

/-- (m, l, a) summarise the keys in J: m their maximum (⊥ for no key), l = Σ exp(s - m),
    a = Σ exp(s - m)·v. -/
structure Summ (s v : ι → ℝ) (J : Finset ι) (m l a : EReal) : Prop where
  hm : m = J.sup fun i => (s i : EReal)
  hl : l = ∑ i ∈ J, Ideal.exp ((s i : EReal) - m)
  ha : a = ∑ i ∈ J, Ideal.exp ((s i : EReal) - m) * (v i : EReal)

/-- No keys: the maximum is `⊥` and both sums are empty. -/
theorem summ_empty (s v : ι → ℝ) : Summ s v ∅ ⊥ 0 0 :=
  ⟨by simp, by simp, by simp⟩

/-- One block step.  If `(m, l, a)` summarise `J` and a nonempty block of new keys `e k`
    (pairwise distinct, none in `J`) has maximum score `b`, then with `m' = max m b` the triple
    `(m', exp (m - m') · l + Σ_k exp (s (e k) - m'),
      exp (m - m') · a + Σ_k exp (s (e k) - m') · v (e k))`
    summarises `J` together with the block. -/
theorem summ_step {κ : Type*} [Fintype κ] [Nonempty κ] (s v : ι → ℝ) (J : Finset ι) (e : κ → ι)
    (he : Function.Injective e) (hdisj : ∀ k, e k ∉ J) {m l a : EReal} (h : Summ s v J m l a) :
    Summ s v (J ∪ Finset.univ.image e)
      (max m (Finset.univ.sup fun k => (s (e k) : EReal)))
      (Ideal.exp (m - max m (Finset.univ.sup fun k => (s (e k) : EReal))) * l
        + ∑ k, Ideal.exp ((s (e k) : EReal) - max m (Finset.univ.sup fun k => (s (e k) : EReal))))
      (Ideal.exp (m - max m (Finset.univ.sup fun k => (s (e k) : EReal))) * a
        + ∑ k, Ideal.exp ((s (e k) : EReal) - max m (Finset.univ.sup fun k => (s (e k) : EReal)))
            * (v (e k) : EReal)) := by
  classical
  obtain ⟨hm, hl, ha⟩ := h
  -- the block maximum is real, hence so is the new maximum
  obtain ⟨rb, hrb⟩ := sup_coe_real (fun k => s (e k)) Finset.univ Finset.univ_nonempty
  obtain ⟨r', hr'⟩ : ∃ r' : ℝ, max m (Finset.univ.sup fun k => (s (e k) : EReal)) = (r' : EReal) := by
    rw [hrb]
    rcases J.eq_empty_or_nonempty with hJ | hJ
    · subst hJ
      refine ⟨rb, ?_⟩
      rw [hm, Finset.sup_empty]
      exact max_eq_right bot_le
    · obtain ⟨r, hr⟩ := sup_coe_real s J hJ
      refine ⟨max r rb, ?_⟩
      rw [hm, hr]
      exact (EReal.coe_strictMono.monotone.map_max).symm
  have hd : Disjoint J (Finset.univ.image e) := by
    rw [Finset.disjoint_left]
    intro i hi hi'
    obtain ⟨k, _, rfl⟩ := Finset.mem_image.mp hi'
    exact hdisj k hi
  have hinj : Set.InjOn e (Finset.univ : Finset κ) := he.injOn
  rw [hr']
  refine ⟨?_, ?_, ?_⟩
  · rw [← hr', Finset.sup_union, Finset.sup_image, hm]
    rfl
  · rw [Finset.sum_union hd, Finset.sum_image hinj, hl, rescale_one s J m r' hm]
  · rw [Finset.sum_union hd, Finset.sum_image hinj, ha, rescale s v J m r' hm]

/-- Final step.  If `(m, l, a)` summarise all keys of a nonempty index type, then `a / l` is the
    softmax-weighted sum `Σ_i (exp (s i - m) / Σ_k exp (s k - m)) · v i`: `m` is real, `l` is the
    coercion of a positive real, so both divisions are multiplications by the real `1 / l` and the
    identity is `(Σ_i x i · v i) · c = Σ_i x i · c · v i` in `ℝ`. -/
theorem summ_final [Fintype ι] [Nonempty ι] (s v : ι → ℝ) {m l a : EReal}
    (h : Summ s v Finset.univ m l a) :
    Ideal.div a l = ∑ i, Ideal.div (Ideal.exp ((s i : EReal) - m))
      (∑ k, Ideal.exp ((s k : EReal) - m)) * (v i : EReal) := by
  classical
  obtain ⟨hm, hl, ha⟩ := h
  obtain ⟨r, hr⟩ := sup_coe_real s Finset.univ Finset.univ_nonempty
  rw [hr] at hm
  subst hm
  have hpos : 0 < ∑ k, Real.exp (s k - r) :=
    Finset.sum_pos (fun k _ => Real.exp_pos _) Finset.univ_nonempty
  have hne : (∑ k, Real.exp (s k - r)) ≠ 0 := ne_of_gt hpos
  have hL : (∑ k, Ideal.exp ((s k : EReal) - (r : EReal)))
      = ((∑ k, Real.exp (s k - r) : ℝ) : EReal) := by
    simp only [exp_sub_coe, ← coe_sum]
  rw [hl, ha, hL]
  simp only [Ideal.div_coe hne, exp_sub_coe, ← EReal.coe_mul, ← coe_sum]
  congr 1
  rw [Finset.sum_mul]
  refine Finset.sum_congr rfl fun i _ => ?_
  ring

end OnlineSoftmax
-- ==== Proof.KernelIdeal.Val1a.lean ====
/-
  Region 1 at the exact instance: one step of the running softmax read at a query row p and an output column c, and
  the invariant it preserves. With m the running maximum of the scores seen so far, l = Σ exp(s − m) and
  a = Σ exp(s − m)·v over the keys seen so far, a step over one more block of keys keeps (m, l, a) of that form for the
  larger set of keys; the start (−∞, 0, 0) is that form for no key; at the end a / l is the softmax-weighted sum.
-/
import proofs.«138782_j46694884442159_2_alg».proof.Proof.KernelIdeal.Pieces
import proofs.«138782_j46694884442159_2_alg».proof.Proof.PayIdx
import proofs.«138782_j46694884442159_2_alg».proof.Proof.LibOnlineSoftmax

noncomputable section

namespace Cert.KernelIdeal.Fr

open Cert.KernelIdeal Cert.KernelIdeal.Gen Cert.KernelIdeal.Pay
open Idealize.ShloMosaic Idealize.ShloMosaic.ValueIdx Idealize.ShloMosaic.TcCoe Idealize.SL.Sem OnlineSoftmax

/-- The scaled score of row p of the query block against key u of the key block. -/
abbrev scoreBlk (q : Vec Ideal S1x1024x1024 .f32) (k : Vec Ideal S1x512x1024 .f32) (p : Fin 1024) (u : Fin 512) : EReal :=
  k1_pay8 q k (ix2 p u)

/-- The new running maximum of row p: the old one against the block's largest score. -/
theorem stepS_m (q : Vec Ideal S1x1024x1024 .f32) (k v : Vec Ideal S1x512x1024 .f32) (s : Vec Ideal S1024x1 .f32 × Vec Ideal S1024x1 .f32 × Vec Ideal S1024x1024 .f32) (p : Fin 1024) :
    (stepS q k v s).1 (ix2 p (0 : Fin 1)) = max (s.1 (ix2 p (0 : Fin 1))) (Finset.univ.sup fun u : Fin 512 => scoreBlk q k p u) := by
  unfold stepS; dsimp only
  rw [pay2_apply, pay9_apply]

/-- The new running normaliser of row p: the old one rescaled, plus the block's exponentials. -/
theorem stepS_l (q : Vec Ideal S1x1024x1024 .f32) (k v : Vec Ideal S1x512x1024 .f32) (s : Vec Ideal S1024x1 .f32 × Vec Ideal S1024x1 .f32 × Vec Ideal S1024x1024 .f32) (p : Fin 1024) :
    (stepS q k v s).2.1 (ix2 p (0 : Fin 1))
      = Ideal.exp (s.1 (ix2 p (0 : Fin 1)) - max (s.1 (ix2 p (0 : Fin 1))) (Finset.univ.sup fun u : Fin 512 => scoreBlk q k p u)) * s.2.1 (ix2 p (0 : Fin 1))
        + ∑ u : Fin 512, Ideal.exp (scoreBlk q k p u - max (s.1 (ix2 p (0 : Fin 1))) (Finset.univ.sup fun u : Fin 512 => scoreBlk q k p u)) := by
  unfold stepS; dsimp only
  rw [pay12_apply, pay10_apply, pay9_apply]
  simp only [pay11_apply, pay9_apply]

/-- The new running weighted sum at (p, c): the old one rescaled, plus the block's exponentials times its values. -/
theorem stepS_a (q : Vec Ideal S1x1024x1024 .f32) (k v : Vec Ideal S1x512x1024 .f32) (s : Vec Ideal S1024x1 .f32 × Vec Ideal S1024x1 .f32 × Vec Ideal S1024x1024 .f32) (p c : Fin 1024) :
    (stepS q k v s).2.2 (ix2 p c)
      = Ideal.exp (s.1 (ix2 p (0 : Fin 1)) - max (s.1 (ix2 p (0 : Fin 1))) (Finset.univ.sup fun u : Fin 512 => scoreBlk q k p u)) * s.2.2 (ix2 p c)
        + ∑ u : Fin 512, Ideal.exp (scoreBlk q k p u - max (s.1 (ix2 p (0 : Fin 1))) (Finset.univ.sup fun u : Fin 512 => scoreBlk q k p u)) * v (ix3 (0 : Fin 1) u c) := by
  unfold stepS; dsimp only
  rw [pay1_apply, pay10_apply, pay9_apply]
  simp only [pay11_apply, pay9_apply, pay7_apply]

/-- One step keeps the summary: if (m, l, a) at (p, c) summarise the keys in J, and the block's scores and values are
    those of the keys e u (new ones), the state after the step summarises J and the block's keys. -/
theorem summ_stepS (sR vR : Fin 2048 → ℝ) (J : Finset (Fin 2048)) (e : Fin 512 → Fin 2048) (he : Function.Injective e)
    (hd : ∀ u, e u ∉ J) (q : Vec Ideal S1x1024x1024 .f32) (k v : Vec Ideal S1x512x1024 .f32) (s : Vec Ideal S1024x1 .f32 × Vec Ideal S1024x1 .f32 × Vec Ideal S1024x1024 .f32) (p c : Fin 1024)
    (hs : ∀ u, scoreBlk q k p u = ((sR (e u) : ℝ) : EReal)) (hv : ∀ u, v (ix3 (0 : Fin 1) u c) = ((vR (e u) : ℝ) : EReal))
    (h : Summ sR vR J (s.1 (ix2 p (0 : Fin 1))) (s.2.1 (ix2 p (0 : Fin 1))) (s.2.2 (ix2 p c))) :
    Summ sR vR (J ∪ Finset.univ.image e) ((stepS q k v s).1 (ix2 p (0 : Fin 1))) ((stepS q k v s).2.1 (ix2 p (0 : Fin 1)))
      ((stepS q k v s).2.2 (ix2 p c)) := by
  rw [stepS_m, stepS_l, stepS_a]
  simp only [hs, hv]
  exact summ_step sR vR J e he hd h

/-- The start state summarises no key. -/
theorem summ_initS (sR vR : Fin 2048 → ℝ) (p c : Fin 1024) :
    Summ sR vR ∅ ((initS (F := Ideal)).1 (ix2 p (0 : Fin 1))) ((initS (F := Ideal)).2.1 (ix2 p (0 : Fin 1))) ((initS (F := Ideal)).2.2 (ix2 p c)) := by
  unfold initS; dsimp only
  rw [pay4_apply, pay5_apply, pay6_apply]
  exact summ_empty sR vR

/-- The stored block is the weighted sum over the normaliser. -/
theorem finS_apply (s : Vec Ideal S1024x1 .f32 × Vec Ideal S1024x1 .f32 × Vec Ideal S1024x1024 .f32) (p c : Fin 1024) :
    finS s (ix3 (0 : Fin 1) p c) = Ideal.div (s.2.2 (ix2 p c)) (s.2.1 (ix2 p (0 : Fin 1))) := by
  unfold finS; exact pay3_apply _ _ p c

variable (V : (c : Dev nD) → (b : Ref sig .tc) → Buf (Elt Ideal) ((c : Thread nD τ).loc b)) (c : Dev nD)

/-- The scratch contents after position n. -/
def stAt (n : ℕ) (hn : n < cfg1.N) : Vec Ideal S1024x1 .f32 × Vec Ideal S1024x1 .f32 × Vec Ideal S1024x1024 .f32 := (outsAt1 V c n hn).2

/-- At a first key block the state is one step from the start state. -/
theorem stAt_first (t : Fin cfg1.N) (h0 : t.val % 4 = 0) :
    stAt V c t.val t.isLt = stepS (iblk1 V c 0 t) (iblk1 V c 1 t) (iblk1 V c 2 t) initS := by
  have h1 : ¬t.val % 4 = 3 := by omega
  unfold stAt; rw [outsAt1_A V c t h0 h1]; exact sA_eq V c t h0 h1

/-- At any other key block it is one step from the state the point before left. -/
theorem stAt_next (t : Fin cfg1.N) (h0 : ¬t.val % 4 = 0) :
    stAt V c t.val t.isLt = stepS (iblk1 V c 0 t) (iblk1 V c 1 t) (iblk1 V c 2 t)
      (stAt V c (t.val - 1) (Nat.lt_of_le_of_lt (Nat.sub_le _ _) t.isLt)) := by
  unfold stAt
  by_cases h1 : t.val % 4 = 3
  · rw [outsAt1_C V c t h0 h1]; exact sC_eq V c t h0 h1 _
  · rw [outsAt1_B V c t h0 h1]; exact sB_eq V c t h0 h1 _

/-- At a last key block the output block is the final quotient of the state. -/
theorem out_last (t : Fin cfg1.N) (h1 : t.val % 4 = 3) :
    (outsAt1 V c t.val t.isLt).1 = finS (stAt V c t.val t.isLt) := by
  have h0 : ¬t.val % 4 = 0 := by omega
  unfold stAt; rw [outsAt1_C V c t h0 h1]; dsimp only
  rw [oC_eq V c t h0 h1, sC_eq V c t h0 h1]

end Cert.KernelIdeal.Fr

end
-- ==== Proof.KernelIdeal.Grid1.lean ====
/-
  Region 1's grid: 4 batches × 2 query blocks × 4 key blocks, the key block innermost. For a point t: its batch, the row
  of the projected array its query-block row p is, and the row its key-block row u is.
-/
import proofs.«138782_j46694884442159_2_alg».proof.Proof.Gen.KernelIdeal.Launch

namespace Cert.KernelIdeal.Fr

open Cert.KernelIdeal Cert.KernelIdeal.Gen Idealize.ShloMosaic

theorem lt32 (t : Fin cfg1.N) : t.val < 32 := lt_of_lt_of_eq t.isLt (show cfg1.N = 32 from N_1)

/-- The batch of point t. -/
def bOf (t : Fin cfg1.N) : Fin 4 := ⟨t.val / 8, by have := lt32 t; omega⟩
/-- The row, among a batch's 2048, of row p of point t's query block. -/
def rowQ (t : Fin cfg1.N) (p : Fin 1024) : Fin 2048 := ⟨((t.val / 4) % 2) * 1024 + p.val, by have := p.isLt; omega⟩
/-- The row, among a batch's 2048, of row u of point t's key (and value) block. -/
def rowK (t : Fin cfg1.N) (u : Fin 512) : Fin 2048 := ⟨(t.val % 4) * 512 + u.val, by have := u.isLt; omega⟩

end Cert.KernelIdeal.Fr
-- ==== Proof.KernelIdeal.Blocks1.lean ====
import proofs.«138782_j46694884442159_2_alg».proof.Proof.KernelIdeal.Body1
import proofs.«138782_j46694884442159_2_alg».proof.Proof.KernelIdeal.Grid1
import Idealize.ShloMosaic.Lib.Pipeline.Value
import Idealize.ShloMosaic.Lib.ValueIdx

/-!
# The attention region's blocks, and its output array from its blocks

The region walks 4 batches × 2 query blocks × 4 key blocks, the key block innermost.  At point `t` the query block is
rows `1024 · qi …` of batch `b` of the projected array, columns `0 … 1023`; the key and value blocks are rows
`512 · ki …` of the same batch, columns `1024 …` and `2048 …`.  The output block (batch `b`, rows `1024 · qi …`) is
written back only at the last key block; those eight write-backs cover the output array, so if each of them writes
the matching block of one function `G`, the array ends holding `G`.
-/

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The printed index maps, decided over the grid: every window's batch index is `t / 8`; the query and output blocks
    are at row block `(t / 4) mod 2`, column block 0; the key and value blocks at row block `t mod 4`, column blocks 1
    and 2. -/
theorem blk1_index_facts : ∀ t : Fin cfg1.N,
    win1_0.index t (0 : Fin 3) = t.val / 8 ∧ win1_0.index t (1 : Fin 3) = (t.val / 4) % 2 ∧ win1_0.index t (2 : Fin 3) = 0
    ∧ win1_1.index t (0 : Fin 3) = t.val / 8 ∧ win1_1.index t (1 : Fin 3) = t.val % 4 ∧ win1_1.index t (2 : Fin 3) = 1
    ∧ win1_2.index t (0 : Fin 3) = t.val / 8 ∧ win1_2.index t (1 : Fin 3) = t.val % 4 ∧ win1_2.index t (2 : Fin 3) = 2
    ∧ win1_3.index t (0 : Fin 3) = t.val / 8 ∧ win1_3.index t (1 : Fin 3) = (t.val / 4) % 2 ∧ win1_3.index t (2 : Fin 3) = 0 :=
  (by decide +kernel : ∀ t : Fin grid1.N, _)

/-- Every (batch, query block) is the output block of some point that writes back. -/
theorem blk1_index_onto : ∀ (q0 : Fin 4) (q1 : Fin 2), ∃ t : Fin cfg1.N,
    (cfg1.win 3).flush t = true ∧ win1_3.index t = ![q0.val, q1.val, 0] :=
  (by decide +kernel : ∀ (q0 : Fin 4) (q1 : Fin 2), ∃ t : Fin grid1.N,
    win1_3.flush t = true ∧ win1_3.index t = ![q0.val, q1.val, 0])

variable (V : (c : Dev nD) → (b : Ref sig .tc) → Buf (Elt Ideal) ((c : Thread nD τ).loc b))

/-- The query block at point `t`: batch `t / 8`, rows `1024 · ((t / 4) mod 2) …`, columns `0 … 1023`. -/
theorem iblk1_0_apply (c : Dev nD) (t : Fin cfg1.N) (p k : Fin 1024) :
    iblk1 V c 0 t (ix3 (0 : Fin 1) p k)
      = V c main_v2 (ix3 (bOf t) (rowQ t p) (⟨k.val, by have := k.isLt; omega⟩ : Fin 3072)) := by
  obtain ⟨e0, e1, e2, -⟩ := blk1_index_facts t
  unfold iblk1
  rw [View.read_apply]
  show V c main_v2 _ = V c main_v2 _
  congr 1
  funext a
  apply Fin.ext
  match a with
  | ⟨0, _⟩ => show win1_0.index t (0 : Fin 3) * 1 + 1 * 0 = t.val / 8; rw [e0]; omega
  | ⟨1, _⟩ => show win1_0.index t (1 : Fin 3) * 1024 + 1 * p.val = ((t.val / 4) % 2) * 1024 + p.val; rw [e1]; omega
  | ⟨2, _⟩ => show win1_0.index t (2 : Fin 3) * 1024 + 1 * k.val = k.val; rw [e2]; omega

/-- The key block at point `t`: batch `t / 8`, rows `512 · (t mod 4) …`, columns `1024 … 2047`. -/
theorem iblk1_1_apply (c : Dev nD) (t : Fin cfg1.N) (u : Fin 512) (k : Fin 1024) :
    iblk1 V c 1 t (ix3 (0 : Fin 1) u k)
      = V c main_v2 (ix3 (bOf t) (rowK t u) (⟨1024 + k.val, by have := k.isLt; omega⟩ : Fin 3072)) := by
  obtain ⟨-, -, -, e0, e1, e2, -⟩ := blk1_index_facts t
  unfold iblk1
  rw [View.read_apply]
  show V c main_v2 _ = V c main_v2 _
  congr 1
  funext a
  apply Fin.ext
  match a with
  | ⟨0, _⟩ => show win1_1.index t (0 : Fin 3) * 1 + 1 * 0 = t.val / 8; rw [e0]; omega
  | ⟨1, _⟩ => show win1_1.index t (1 : Fin 3) * 512 + 1 * u.val = (t.val % 4) * 512 + u.val; rw [e1]; omega
  | ⟨2, _⟩ => show win1_1.index t (2 : Fin 3) * 1024 + 1 * k.val = 1024 + k.val; rw [e2]; omega

/-- The value block at point `t`: batch `t / 8`, rows `512 · (t mod 4) …`, columns `2048 … 3071`. -/
theorem iblk1_2_apply (c : Dev nD) (t : Fin cfg1.N) (u : Fin 512) (k : Fin 1024) :
    iblk1 V c 2 t (ix3 (0 : Fin 1) u k)
      = V c main_v2 (ix3 (bOf t) (rowK t u) (⟨2048 + k.val, by have := k.isLt; omega⟩ : Fin 3072)) := by
  obtain ⟨-, -, -, -, -, -, e0, e1, e2, -⟩ := blk1_index_facts t
  unfold iblk1
  rw [View.read_apply]
  show V c main_v2 _ = V c main_v2 _
  congr 1
  funext a
  apply Fin.ext
  match a with
  | ⟨0, _⟩ => show win1_2.index t (0 : Fin 3) * 1 + 1 * 0 = t.val / 8; rw [e0]; omega
  | ⟨1, _⟩ => show win1_2.index t (1 : Fin 3) * 512 + 1 * u.val = (t.val % 4) * 512 + u.val; rw [e1]; omega
  | ⟨2, _⟩ => show win1_2.index t (2 : Fin 3) * 1024 + 1 * k.val = 2048 + k.val; rw [e2]; omega

/-- At literal types: a block that agrees with `G` at batch `b` and rows `r p`, read at `j`, is `G` at any index with
    those coordinates. -/
theorem blk1_point (G : S4x2048x1024.Idx → EReal) (o : Vec Ideal S1x1024x1024 .f32) (b : Fin 4) (r : Fin 1024 → Fin 2048)
    (ho : ∀ p cc : Fin 1024, o (ix3 (0 : Fin 1) p cc) = G (ix3 b (r p) cc))
    (j : S1x1024x1024.Idx) (i : S4x2048x1024.Idx) (h0 : (i 0).val = b.val)
    (h1 : ∀ p : Fin 1024, p.val = (j 1).val → (i 1).val = (r p).val) (h2 : (i 2).val = (j 2).val) : o j = G i := by
  obtain ⟨z, p, cc, rfl⟩ : ∃ (z : Fin 1) (p cc : Fin 1024), j = ix3 z p cc := ⟨j 0, j 1, j 2, eq_ix3 j⟩
  obtain rfl : z = 0 := Subsingleton.elim _ _
  rw [ho p cc]
  refine congrArg G (funext fun a => Fin.ext ?_)
  match a with
  | ⟨0, _⟩ => exact h0.symm
  | ⟨1, _⟩ => exact (h1 p rfl).symm
  | ⟨2, _⟩ => exact h2.symm

/-- An index of the output array is in point `t`'s block iff each coordinate is in the block's range on its axis. -/
theorem blk1_mem (t : Fin cfg1.N) (i : S4x2048x1024.Idx) :
    i ∈ ((cfg1.win 3).blk t).view.set
      ↔ ∀ a : Fin 3, win1_3.index t a * S1x1024x1024.size a ≤ (i a).val
          ∧ (i a).val < win1_3.index t a * S1x1024x1024.size a + S1x1024x1024.size a := by
  show i ∈ ((View.whole main_v3).slice (win1_3.rect t)).set ↔ _
  rw [View.set_slice_whole, Rect.mem_set_unit]
  exact Iff.rfl

/-- Every index of the output array is in the block of a point that writes back: batch `b'`, row `r` is in the
    block of the last key-block point of (`b'`, `r / 1024`). -/
theorem blk1_cover (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, hf, ht⟩ := blk1_index_onto ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, hf, ?_⟩
  rw [blk1_mem]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 1024 ≤ (i 2).val ∧ (i 2).val < win1_3.index t (2 : Fin 3) * 1024 + 1024
    omega

/-- What a point that writes back writes is its block of `G`, when the output block there agrees with `G`. -/
theorem blk1_flushed_eq (c : Dev nD) (G : S4x2048x1024.Idx → EReal)
    (hfl : ∀ t : Fin cfg1.N, t.val % 4 = 3 → ∀ p cc : Fin 1024,
      (outsAt1 V c t.val t.isLt).1 (ix3 (0 : Fin 1) p cc) = G (ix3 (bOf t) (rowQ t p) cc))
    (t : Fin cfg1.N) (hf : (cfg1.win 3).flush t = true) :
    (dat1 V c).flushed 3 t = ((cfg1.win 3).blk t).view.read (Elt Ideal) G := by
  have h3 : t.val % 4 = 3 := (flush1_3 t).mp hf
  show (cfg1.win 3).cut (grid1.coords t) ((dat1 V c).after 3 t) = _
  rw [after1_3]
  obtain ⟨-, -, -, -, -, -, -, -, -, e0, e1, e2⟩ := blk1_index_facts t
  funext j
  show (outsAt1 V c t.val t.isLt).1 j = G (((cfg1.win 3).blk t).view.emb j)
  refine blk1_point G _ (bOf t) (rowQ t) (hfl t h3) j _ ?_ ?_ ?_
  · show win1_3.index t (0 : Fin 3) * 1 + 1 * (j 0).val = t.val / 8
    have hj : (j 0).val < 1 := (j 0).isLt
    rw [e0]; omega
  · intro p hp
    show win1_3.index t (1 : Fin 3) * 1024 + 1 * (j 1).val = ((t.val / 4) % 2) * 1024 + p.val
    rw [e1, hp]; omega
  · show win1_3.index t (2 : Fin 3) * 1024 + 1 * (j 2).val = (j 2).val
    rw [e2]; omega

/-- The output array after the region is `G`, when every written-back output block agrees with `G`. -/
theorem final1 (c : Dev nD) (G : S4x2048x1024.Idx → EReal)
    (hfl : ∀ t : Fin cfg1.N, t.val % 4 = 3 → ∀ p cc : Fin 1024,
      (outsAt1 V c t.val t.isLt).1 (ix3 (0 : Fin 1) p cc) = G (ix3 (bOf t) (rowQ t p) cc)) :
    (dat1 V c).arrAt 3 cfg1.N = G :=
  (dat1 V c).arrAt_eq_of_cover 3 G (fun t hf => blk1_flushed_eq V c G hfl t hf) blk1_cover

end Cert.KernelIdeal.Fr

end
-- ==== Proof.KernelIdeal.Run.lean ====
/-
  The run of @main: a reshape, region 0, a reshape, region 1. The buffer contents at each boundary are a fold from the
  launch memory; each region is entered from the thread state "every unscoped buffer at the boundary's contents" and
  left at the next one. Region 1's three input windows read one array, so its entry deals that array's full share into
  three shares and its exit joins them again. The run ends with every unscoped buffer at the last boundary's contents.
-/
import proofs.«138782_j46694884442159_2_alg».proof.Proof.KernelIdeal.Body1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first reshape (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second reshape (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: the result array at what the write-backs leave, every other buffer as entered (its three input
    windows read one array and write nothing). -/
def W4 (c : Dev nD) : Valuation τ sig (Elt F) :=
  Function.update (W3 m ρ c) (Proc.devRef .tc main_v3) ((dat1 (V3 m ρ) c).arrAt 3 cfg1.N)
abbrev V4 : (c : Dev nD) → (b : Ref sig .tc) → Buf (Elt F) ((c : Thread nD τ).loc b) := fun c b => W4 m ρ c b
theorem W4_v3 (c : Dev nD) : W4 m ρ c (Proc.devRef .tc main_v3) = (dat1 (V3 m ρ) c).arrAt 3 cfg1.N := by
  unfold W4; exact Function.update_self ..
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) ..

/-- Each argument array ends as launched: no reshape writes one and no region writes one. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A reshape as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- REGION 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's arrays, window by window: the three input windows hold three shares of the projected array that make
    the whole, the output window the result array whole. -/
theorem arrays1_eq (V : (c : Dev nD) → (b : Ref sig .tc) → Buf (Elt F) ((c : Thread nD τ).loc b)) (c : Dev nD) (Fw : (w : Fin cfg1.W) → Buf (Elt F) ((cfg1.win w).arr.view.loc (c.tc : Thread nD τ))) :
    ((dat1 V c).arrays Fw : sProp 𝕄) = iprop((((c : Thread nD τ).loc main_v2) ↦{fullShare.left} Fw 0) ∗ (((c : Thread nD τ).loc main_v2) ↦{fullShare.right.left} Fw 1) ∗ (((c : Thread nD τ).loc main_v2) ↦{fullShare.right.right} Fw 2) ∗ (((c : Thread nD τ).loc main_v3) ↦{fullShare} Fw 3)) := by
  unfold Dat.arrays
  have h : ∀ w : Fin cfg1.W, (((cfg1.win w).arr.view.loc (c.tc : Thread nD τ)) ↦[(cfg1.win w).arr.view.set]{(dat1 V c).share w} Fw w : sProp 𝕄)
      = (((cfg1.win w).arr.view.loc (c.tc : Thread nD τ)) ↦{(dat1 V c).share w} Fw w) := fun w => by
    rw [(arr_whole1 w).set_eq_univ]
  rw [bigSep_congr fun w _ => h w, bigSep_W1]; rfl

/-- The distinct buffers behind region 1's arrays: the projected array and the result array. -/
theorem arrBufs1_eq (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄)
      = iprop((((c : Thread nD τ).loc main_v2) ↦{fullShare} V c main_v2) ∗ (((c : Thread nD τ).loc main_v3) ↦{fullShare} V c main_v3)) := by
  unfold Pipeline.arrBufs; rw [BI.bigSep_eq_bigSepL_of_eq [main_v2, main_v3] (by decide) (by decide)]; rfl

/-- ENTRY: the projected array's full share dealt among the three windows that read it; the result array whole. -/
theorem entry1 (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrays1_eq, arrBufs1_eq]
  iintro ⟨H2, H3⟩
  ihave Hs := (pointsTo_share (PosShare.mem_left_op_right fullShare)).1 $$ H2
  icases Hs with ⟨Ha, Hbc⟩
  ihave Hs2 := (pointsTo_share (PosShare.mem_left_op_right fullShare.right)).1 $$ Hbc
  icases Hs2 with ⟨Hb, Hc⟩
  isplitl [Ha]; · iexact Ha
  isplitl [Hb]; · iexact Hb
  isplitl [Hc]; · iexact Hc
  iexact H3

/-- EXIT: the three shares of the projected array, unchanged by the region, join to the whole; the result array is
    whole at what the write-backs left. -/
theorem exit1 (V : (c : Dev nD) → (b : Ref sig .tc) → Buf (Elt F) ((c : Thread nD τ).loc b)) (c : Dev nD) :
    (dat1 V c).arrays ((dat1 V c).arrAt · cfg1.N)
      ⊢ (iprop((((c : Thread nD τ).loc main_v2) ↦{fullShare} V c main_v2) ∗ (((c : Thread nD τ).loc main_v3) ↦{fullShare} (dat1 V c).arrAt 3 cfg1.N)) : sProp 𝕄) := by
  have e0 : (dat1 V c).arrAt 0 cfg1.N = V c main_v2 := ((dat1 V c).arrAt_in 0 rfl _).trans (A_eq1 V c 0)
  have e1 : (dat1 V c).arrAt 1 cfg1.N = V c main_v2 := ((dat1 V c).arrAt_in 1 rfl _).trans (A_eq1 V c 1)
  have e2 : (dat1 V c).arrAt 2 cfg1.N = V c main_v2 := ((dat1 V c).arrAt_in 2 rfl _).trans (A_eq1 V c 2)
  rw [arrays1_eq]
  beta_reduce
  rw [e0, e1, e2]
  iintro ⟨Ha, Hb, Hc, H3⟩
  isplitl [Ha Hb Hc]
  · iapply (pointsTo_share (PosShare.mem_left_op_right fullShare)).2
    isplitl [Ha]; · iexact Ha
    iapply (pointsTo_share (PosShare.mem_left_op_right fullShare.right)).2
    isplitl [Hb] <;> iassumption
  iexact H3

/-- The buffers no window of region 1 stages are untouched by it. -/
theorem rest1_eq (c : Dev nD) :
    (Pipeline.unscopedRest (Ix := Unit) (Name := ℕ) (U := UR sig nD τ) (Lvl := ℕ) spec1 c (V4 m ρ c) : sProp 𝕄)
      = Pipeline.unscopedRest spec1 c (V3 m ρ c) := by
  unfold Pipeline.unscopedRest
  exact bigSep_congr fun b hb => by
    rw [show V4 m ρ c b = V3 m ρ c b from W4_of_ne m ρ c b (fun e => (Finset.mem_sdiff.mp hb).2 (Finset.mem_image.mpr ⟨3, Finset.mem_univ _, by subst e; rfl⟩))]

set_option backward.isDefEq.respectTransparency.types false in
/-- REGION 1 over the thread state: entered from every unscoped buffer at `W3`, left at `W4`. The projected array is
    split out of the unscoped buffers and dealt among the three windows reading it, and joined again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hs : (unscopedBufs c (V3 m ρ c) : sProp 𝕄) = iprop(Pipeline.arrBufs spec1 c (V3 m ρ c) ∗ Pipeline.unscopedRest spec1 c (V3 m ρ c)) :=
      Pipeline.unscopedBufs_split₀ (Ix := Unit) (Name := ℕ) (U := UR sig nD τ) (Lvl := ℕ) (Val := Elt F) (nD := nD) (τ := τ) cfgs 1 winFacts₀1.arr_unscoped c (V3 m ρ c)
    rw [Pipeline.unscopedBufs_held] at hs
    iintro ⟨⟨Hub, Hp, HO⟩, -, -⟩
    ihave H := (Entails.of_eq hs) $$ Hub
    icases H with ⟨Hab, Hrest⟩
    ihave Ha := (entry1 (V3 m ρ) c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hs : (unscopedBufs c (V4 m ρ c) : sProp 𝕄) = iprop(Pipeline.arrBufs spec1 c (V4 m ρ c) ∗ Pipeline.unscopedRest spec1 c (V4 m ρ c)) :=
      Pipeline.unscopedBufs_split₀ (Ix := Unit) (Name := ℕ) (U := UR sig nD τ) (Lvl := ℕ) (Val := Elt F) (nD := nD) (τ := τ) cfgs 1 winFacts₀1.arr_unscoped c (V4 m ρ c)
    rw [Pipeline.unscopedBufs_held, rest1_eq, arrBufs1_eq (V4 m ρ) c,
      show V4 m ρ c main_v2 = V3 m ρ c main_v2 from W4_of_ne m ρ c main_v2 (by decide),
      show V4 m ρ c main_v3 = (dat1 (V3 m ρ) c).arrAt 3 cfg1.N from W4_v3 m ρ c] at hs
    have hx : ((pdats m ρ 1 c).arrays fun x => (pdats m ρ 1 c).arrAt x (Pipeline.pin (pcfgs (F := F)) adm 1).N)
        ⊢ (iprop((((c : Thread nD τ).loc main_v2) ↦{fullShare} V3 m ρ c main_v2) ∗ (((c : Thread nD τ).loc main_v3) ↦{fullShare} (dat1 (V3 m ρ) c).arrAt 3 cfg1.N)) : sProp 𝕄) :=
      exit1 (V3 m ρ) c
    iintro ⟨Ha, HO, HY, Hrest⟩
    ihave Hj := hx $$ Ha
    icases Hj with ⟨H2, H3⟩
    imodintro
    isplitl [H2 H3 Hrest HY]
    · isplitl [H2 H3 Hrest]
      · iapply (Entails.of_eq hs.symm)
        isplitl [H2 H3]
        · isplitl [H2]; · iexact H2
          iexact H3
        iexact Hrest
      iexact HY
    unfold Pipeline.Dat.owesAt Pipeline.owesWithin
    icases HO with ⟨%W, -, HO⟩; iexists W; iexact HO

/-- @main's four segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The run with the result named: the result array ends at what region 1's write-backs leave. -/
theorem run_result : θ_run defs (onTc (τ := τ) (main (F := F))) ⟨m, fun _ => 0, ρ⟩ (fun r => ∀ c : Dev nD,
      r.2.mem ((c.tc : Thread nD τ).loc main_v3) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v3 (by decide))).trans (W4_v3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Fr

end
-- ==== Proof.KernelIdeal.Val0.lean ====
import proofs.«138782_j46694884442159_2_alg».proof.Proof.KernelIdeal.Body0
import proofs.«138782_j46694884442159_2_alg».proof.Proof.PayIdx
import Idealize.ShloMosaic.Lib.Pipeline.Value
import Idealize.ShloMosaic.Lib.ValueIdx

/-!
# The projection's output array after its region

The region walks the 32 row blocks of 256 rows.  At each point the body writes, into the output block, the
product of the point's block of `x` with the whole of `W` plus the bias; every block is written back.  Block `t`
of the output is therefore block `t` of the one whole-array function `proj0` (row `r` of `x · W + bias`), and since
the blocks cover all 8192 rows the output array ends holding `proj0` of the region's entry contents.
-/

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Row `r` of the projection at column `d`: `Σ_k x(r, k) · W(k, d) + bias(d)`. -/
def proj0 (x2 : S8192x1024.Idx → EReal) (W : S1024x3072.Idx → EReal) (B : S3072.Idx → EReal) : S8192x3072.Idx → EReal :=
  fun j => (∑ k : Fin 1024, x2 (ix2 (⟨(j 0).val, (j 0).isLt⟩ : Fin 8192) k) * W (ix2 k (⟨(j 1).val, (j 1).isLt⟩ : Fin 3072)))
    + B (ix1 (⟨(j 1).val, (j 1).isLt⟩ : Fin 3072))

theorem proj0_apply (x2 : S8192x1024.Idx → EReal) (W : S1024x3072.Idx → EReal) (B : S3072.Idx → EReal)
    (r : Fin 8192) (d : Fin 3072) :
    proj0 x2 W B (ix2 r d) = (∑ k : Fin 1024, x2 (ix2 r k) * W (ix2 k d)) + B (ix1 d) := rfl

theorem zero_off2 : (![0, 0] : Fin 2 → Nat) = fun _ => 0 := funext fun a => by fin_cases a <;> rfl
theorem zero_off1 : (![0] : Fin 1 → Nat) = fun _ => 0 := funext fun a => by fin_cases a; rfl

/-- The printed index maps, decided over the grid: the blocks of `x` and of the output are at row block `t`,
    column block 0; `W` and the bias are whole. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Every row block is some point's. -/
theorem index_onto0 : ∀ q : Fin 32, ∃ t : Fin cfg0.N, win0_3.index t = ![q.val, 0] :=
  (by decide +kernel : ∀ q : Fin 32, ∃ t : Fin grid0.N, win0_3.index t = ![q.val, 0])

/-- At literal types: if a block of 256 rows of `x` is rows `256 n …` of `X`, the body's value at `j` is `proj0` at
    the index `256 n` rows further down. -/
theorem pay_block (X : S8192x1024.Idx → EReal) (W : S1024x3072.Idx → EReal) (B : S3072.Idx → EReal)
    (x0 : Vec Ideal S256x1024 .f32) (x1 : Vec Ideal S1024x3072 .f32) (x2 : Vec Ideal S3072 .f32) (n : Nat)
    (h0 : ∀ (y : S256x1024.Idx) (i : S8192x1024.Idx), (i 0).val = n * 256 + (y 0).val → (i 1).val = (y 1).val → x0 y = X i)
    (h1 : x1 = W) (h2 : x2 = B)
    (j : S256x3072.Idx) (i : S8192x3072.Idx) (hi0 : (i 0).val = n * 256 + (j 0).val) (hi1 : (i 1).val = (j 1).val) :
    k0_pay1 x0 x1 x2 j = proj0 X W B i := by
  subst h1 h2
  obtain ⟨p, d, rfl⟩ : ∃ (p : Fin 256) (d : Fin 3072), j = ix2 p d := ⟨j 0, j 1, eq_ix2 j⟩
  obtain ⟨r, d', rfl⟩ : ∃ (r : Fin 8192) (d' : Fin 3072), i = ix2 r d' := ⟨i 0, i 1, eq_ix2 i⟩
  obtain rfl : d' = d := Fin.ext hi1
  rw [Pay.k0_pay1_apply, proj0_apply]
  refine congrArg (· + x2 (ix1 d')) (Finset.sum_congr rfl fun k _ => ?_)
  rw [h0 (ix2 p k) (ix2 r k) hi0 rfl]

variable (V : (c : Dev nD) → (b : Ref sig .tc) → Buf (Elt Ideal) ((c : Thread nD τ).loc b))

/-- The block of `x` at point `t` is rows `256 t … 256 t + 255` of the array. -/
theorem iblk0_0_apply (c : Dev nD) (t : Fin cfg0.N) (y : S256x1024.Idx) (i : S8192x1024.Idx)
    (h0 : (i 0).val = t.val * 256 + (y 0).val) (h1 : (i 1).val = (y 1).val) :
    (iblk0 V c 0 t : Vec Ideal S256x1024 .f32) y = (V c main_v0 : S8192x1024.Idx → EReal) i := by
  obtain ⟨e0, e1, -⟩ := index_facts0 t
  unfold iblk0
  rw [View.read_apply]
  show V c main_v0 _ = V c main_v0 _
  congr 1
  funext a
  apply Fin.ext
  match a with
  | ⟨0, _⟩ => show win0_0.index t (0 : Fin 2) * 256 + 1 * (y 0).val = (i 0).val; rw [e0, h0]; omega
  | ⟨1, _⟩ => show win0_0.index t (1 : Fin 2) * 1024 + 1 * (y 1).val = (i 1).val; rw [e1, h1]; omega

/-- The block of `W` at every point is the whole array. -/
theorem iblk0_1_eq (c : Dev nD) (t : Fin cfg0.N) :
    (iblk0 V c 1 t : Vec Ideal S1024x3072 .f32) = (V c main_arg1 : S1024x3072.Idx → EReal) := by
  obtain ⟨-, -, e0, e1, -⟩ := index_facts0 t
  funext y
  unfold iblk0
  rw [View.read_apply]
  show V c main_arg1 _ = V c main_arg1 y
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 3072 + 1 * (y 1).val = (y 1).val; rw [e1]; omega

/-- The block of the bias at every point is the whole array. -/
theorem iblk0_2_eq (c : Dev nD) (t : Fin cfg0.N) :
    (iblk0 V c 2 t : Vec Ideal S3072 .f32) = (V c main_arg2 : S3072.Idx → EReal) := by
  obtain ⟨-, -, -, -, e0, -⟩ := index_facts0 t
  funext y
  unfold iblk0
  rw [View.read_apply]
  show V c main_arg2 _ = V c main_arg2 y
  congr 1
  funext a
  apply Fin.ext
  match a with
  | ⟨0, _⟩ => show win0_2.index t (0 : Fin 1) * 3072 + 1 * (y 0).val = (y 0).val; rw [e0]; omega

/-- What point `t` writes back is block `t` of `proj0` of the arrays as the region finds them. -/
theorem flushed0_eq (c : Dev nD) (t : Fin cfg0.N) :
    (dat0 V c).flushed 3 t
      = ((cfg0.win 3).blk t).view.read (Elt Ideal) (proj0 (V c main_v0) (V c main_arg1) (V c main_arg2)) := by
  show (cfg0.win 3).cut (grid0.coords t) ((dat0 V c).after 3 t) = _
  rw [after0_3]
  unfold out0_3
  rw [View.canon_unit_zero zero_off2]
  simp only [View.ld_unit_zero (S := S256x1024) zero_off2, View.ld_unit_zero (S := S1024x3072) zero_off2,
    View.ld_unit_zero (S := S3072) zero_off1]
  obtain ⟨-, -, -, -, -, e0, e1⟩ := index_facts0 t
  funext j
  show k0_pay1 (iblk0 V c 0 t) (iblk0 V c 1 t) (iblk0 V c 2 t) j
    = proj0 (V c main_v0) (V c main_arg1) (V c main_arg2) (((cfg0.win 3).blk t).view.emb j)
  refine pay_block (V c main_v0) (V c main_arg1) (V c main_arg2) _ _ _ t.val
    (fun y i h0 h1 => iblk0_0_apply V c t y i h0 h1) (iblk0_1_eq V c t) (iblk0_2_eq V c t) j _ ?_ ?_
  · show win0_3.index t (0 : Fin 2) * 256 + 1 * (j 0).val = t.val * 256 + (j 0).val
    rw [e0]; omega
  · show win0_3.index t (1 : Fin 2) * 3072 + 1 * (j 1).val = (j 1).val
    rw [e1]; omega

/-- An index of the output array is in point `t`'s block iff each coordinate is in the block's range on its axis. -/
theorem mem_blk0 (t : Fin cfg0.N) (i : S8192x3072.Idx) :
    i ∈ ((cfg0.win 3).blk t).view.set
      ↔ ∀ a : Fin 2, win0_3.index t a * S256x3072.size a ≤ (i a).val
          ∧ (i a).val < win0_3.index t a * S256x3072.size a + S256x3072.size a := by
  show i ∈ ((View.whole main_v1).slice (win0_3.rect t)).set ↔ _
  rw [View.set_slice_whole, Rect.mem_set_unit]
  exact Iff.rfl

/-- Every index of the output array is in some point's block: row `r` is in block `r / 256`. -/
theorem cover0 (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  obtain ⟨t, ht⟩ := index_onto0 ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk0]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 3072 ≤ (i 1).val ∧ (i 1).val < win0_3.index t (1 : Fin 2) * 3072 + 3072
    omega

/-- The output array after the region: `proj0` of the arrays as the region finds them. -/
theorem final0 (c : Dev nD) :
    (dat0 V c).arrAt 3 cfg0.N = proj0 (V c main_v0) (V c main_arg1) (V c main_arg2) :=
  (dat0 V c).arrAt_eq_of_cover 3 (proj0 (V c main_v0) (V c main_arg1) (V c main_arg2))
    (fun t _ => flushed0_eq V c t) cover0

end Cert.KernelIdeal.Fr

end
-- ==== Proof.Spec.lean ====
/-
  The function both programs compute, index by index, on the extended reals.
  From x : [4, 2048, 1024], W : [1024, 3072] and bias : [3072]:
    p(b, t, d)   = Σ_k x(b, t, k) · W(k, d) + bias(d)                 (the joint projection, d < 3072)
    q, k, v      = the three thirds of p along d
    s(b, t, u)   = (Σ_c q(b, t, c) · k(b, u, c)) · 2⁻⁵                 (scores of query t against key u)
    w(b, t, u)   = exp (s(b, t, u) − max_u' s(b, t, u'))
    out(b, t, c) = Σ_u (w(b, t, u) / Σ_u' w(b, t, u')) · v(b, u, c)
  written in the arrangement of the plain softmax: the maximum over all keys first, the quotient inside the sum.
-/
import Idealize.ShloMosaic.PureOps.Ideal
import Idealize.ShloMosaic.Lib.ValueIdx

noncomputable section

namespace Cert.Spec

open Idealize.ShloMosaic Idealize.ShloMosaic.ValueIdx

abbrev SX : Shape := ⟨3, ![4, 2048, 1024]⟩
abbrev SW : Shape := ⟨2, ![1024, 3072]⟩
abbrev SB : Shape := ⟨1, ![3072]⟩

variable (X : SX.Idx → EReal) (W : SW.Idx → EReal) (B : SB.Idx → EReal)

/-- The joint projection of row (b, t) at column d. -/
def proj (b : Fin 4) (t : Fin 2048) (d : Fin 3072) : EReal :=
  (∑ k : Fin 1024, X (ix3 b t k) * W (ix2 k d)) + B (ix1 d)

/-- Its three thirds: queries, keys and values. -/
def qv (b : Fin 4) (t : Fin 2048) (c : Fin 1024) : EReal := proj X W B b t ⟨c.val, by omega⟩
def kv (b : Fin 4) (t : Fin 2048) (c : Fin 1024) : EReal := proj X W B b t ⟨1024 + c.val, by omega⟩
def vv (b : Fin 4) (t : Fin 2048) (c : Fin 1024) : EReal := proj X W B b t ⟨2048 + c.val, by omega⟩

/-- The scale 2⁻⁵, as the f32 word both programs meet it at. -/
def scale : EReal := Ideal.ofBits .f32 0x3D000000#32

/-- The score of query t against key u. -/
def score (b : Fin 4) (t u : Fin 2048) : EReal := (∑ c : Fin 1024, qv X W B b t c * kv X W B b u c) * scale

/-- The largest score of a query's row. -/
def rowMax (b : Fin 4) (t : Fin 2048) : EReal := Finset.univ.sup fun u : Fin 2048 => score X W B b t u

/-- The unnormalised weight of key u for query t. -/
def wgt (b : Fin 4) (t u : Fin 2048) : EReal := Ideal.exp (score X W B b t u - rowMax X W B b t)

/-- The attention output at (b, t, c). -/
def out (b : Fin 4) (t : Fin 2048) (c : Fin 1024) : EReal :=
  ∑ u : Fin 2048, Ideal.div (wgt X W B b t u) (∑ u' : Fin 2048, wgt X W B b t u') * vv X W B b u c

end Cert.Spec

end
-- ==== Proof.KernelIdeal.Entry1.lean ====
/-
  The projected array as the second kernel region finds it.  Between the launch and that region the program reshapes
  x from [4, 2048, 1024] to [8192, 1024], runs the projection region, and reshapes its output from [8192, 3072] to
  [4, 2048, 3072].  Both reshapes keep the row-major position, so row b · 2048 + t of the flat arrays is row (b, t) of
  the three-axis ones, and the array read at (b, t, d) is the joint projection of the launch contents at (b, t, d).
-/
import proofs.«138782_j46694884442159_2_alg».proof.Proof.KernelIdeal.Run
import proofs.«138782_j46694884442159_2_alg».proof.Proof.KernelIdeal.Val0
import proofs.«138782_j46694884442159_2_alg».proof.Proof.Spec
import Idealize.ShloMosaic.Lib.StableHlo.Run
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.ValueIdx Idealize.ShloMosaic.TcCoe
open Idealize.SL.Sem

/-- The flat row of the pair (b, t). -/
abbrev flatRow (b : Fin 4) (t : Fin 2048) : Fin 8192 := ⟨b.val * 2048 + t.val, by omega⟩

/-- x reshaped from [4, 2048, 1024] to [8192, 1024], read at row b · 2048 + t: the same row-major position as (b, t, k). -/
theorem castX_apply (X : S4x2048x1024.Idx → EReal) (h : S4x2048x1024.ShapeCasts S8192x1024)
    (b : Fin 4) (t : Fin 2048) (k : Fin 1024) :
    shapeCast S8192x1024 X h (ix2 (flatRow b t) k) = X (ix3 b t k) :=
  shapeCast_apply X h _ _ (by
    rw [Shape.rowMajor_val_three, Shape.rowMajor_val_two]
    show (b.val * 2048 + t.val) * 1024 + k.val = (b.val * 2048 + t.val) * 1024 + k.val
    rfl)

/-- The projection's output reshaped from [8192, 3072] to [4, 2048, 3072], read at (b, t, d): row b · 2048 + t. -/
theorem castP_apply (P : S8192x3072.Idx → EReal) (h : S8192x3072.ShapeCasts S4x2048x3072)
    (b : Fin 4) (t : Fin 2048) (d : Fin 3072) :
    shapeCast S4x2048x3072 P h (ix3 b t d) = P (ix2 (flatRow b t) d) :=
  shapeCast_apply P h _ _ (by
    rw [Shape.rowMajor_val_three, Shape.rowMajor_val_two]
    show (b.val * 2048 + t.val) * 3072 + d.val = (b.val * 2048 + t.val) * 3072 + d.val
    rfl)

variable (m : (ℓ : Loc nD τ sig) → Buf (Elt Ideal) ℓ) (ρ : Dev nD → PrngReg)

/-- Region 0 finds x as the reshape of the launch contents. -/
theorem V1_v0 (c : Dev nD) :
    (V1 m ρ c main_v0 : S8192x1024.Idx → EReal)
      = shapeCast S8192x1024 (m ((c.tc : Thread nD τ).loc main_arg0) : S4x2048x1024.Idx → EReal) shapeCasts_S4x2048x1024_S8192x1024 := by
  dsimp only [V1, W1, hostOps0]
  after_results
  rfl

/-- Region 0 finds W as launched: the reshape writes only x's flat copy. -/
theorem V1_arg1 (c : Dev nD) :
    V1 m ρ c main_arg1 = m ((c.tc : Thread nD τ).loc main_arg1) := by
  dsimp only [V1, W1, hostOps0]
  after_results

/-- Region 0 finds the bias as launched. -/
theorem V1_arg2 (c : Dev nD) :
    V1 m ρ c main_arg2 = m ((c.tc : Thread nD τ).loc main_arg2) := by
  dsimp only [V1, W1, hostOps0]
  after_results

/-- Region 0 leaves its output array at the projection of the arrays it found. -/
theorem W2_v1 (c : Dev nD) :
    (W2 m ρ c (Proc.devRef .tc main_v1) : S8192x3072.Idx → EReal)
      = proj0 (V1 m ρ c main_v0) (V1 m ρ c main_arg1) (V1 m ρ c main_arg2) :=
  (W2_arr m ρ c 3).trans (final0 (V1 m ρ) c)

/-- Region 1 finds the projected array as the reshape of region 0's output. -/
theorem V3_v2 (c : Dev nD) :
    (V3 m ρ c main_v2 : S4x2048x3072.Idx → EReal)
      = shapeCast S4x2048x3072 (W2 m ρ c (Proc.devRef .tc main_v1) : S8192x3072.Idx → EReal) shapeCasts_S8192x3072_S4x2048x3072 := by
  dsimp only [V3, W3, hostOps1]
  after_results
  rfl

/-- The projected array as region 1 finds it, read at (b, t, d): the joint projection of the launch contents. -/
theorem entry1_eq (c : Dev nD) (b : Fin 4) (t : Fin 2048) (d : Fin 3072) :
    V3 m ρ c main_v2 (ix3 b t d)
      = Cert.Spec.proj (m ((c.tc : Thread nD τ).loc main_arg0)) (m ((c.tc : Thread nD τ).loc main_arg1))
          (m ((c.tc : Thread nD τ).loc main_arg2)) b t d := by
  rw [V3_v2, castP_apply, W2_v1, proj0_apply, V1_v0, V1_arg1, V1_arg2]
  unfold Cert.Spec.proj
  refine congrArg (· + _) (Finset.sum_congr rfl fun k _ => ?_)
  rw [castX_apply]

end Cert.KernelIdeal.Fr

end
-- ==== Proof.LibFinite.lean ====
import Idealize.ShloMosaic.PureOps.Ideal
import Idealize.ShloMosaic.PureOps.Ideal.Laws
import Idealize.ShloMosaic.Lib.ValueIdx

/-!
  Extended reals that are real numbers, and the operations that keep them so.

  The ideal float values are extended reals. An entry that is the coercion of a real number (neither infinity) stays one
  under sums, products, maxima, finite sums, real powers, gathers, accumulating scatters and selections; and over such
  entries a dot product may be scaled inside the sum.
-/

noncomputable section

namespace Idealize.ShloMosaic.LibFinite

open Idealize.ShloMosaic Idealize.ShloMosaic.ValueIdx
open scoped BigOperators

/-- An extended real that is a real number: the coercion of some `r : ℝ`, so neither infinity. -/
def IsReal (x : EReal) : Prop := ∃ r : ℝ, x = (r : EReal)

/-- Zero is a real number. -/
theorem IsReal.zero : IsReal (0 : EReal) := ⟨0, rfl⟩

/-- The coercion of a real number is one. -/
theorem IsReal.coe (r : ℝ) : IsReal (r : EReal) := ⟨r, rfl⟩

/-- The sum of two real numbers is real. -/
theorem IsReal.add (a b : EReal) : IsReal a → IsReal b → IsReal (a + b) := by
  rintro ⟨x, rfl⟩ ⟨y, rfl⟩; exact ⟨x + y, (EReal.coe_add x y).symm⟩

/-- The product of two real numbers is real. -/
theorem IsReal.mul (a b : EReal) : IsReal a → IsReal b → IsReal (a * b) := by
  rintro ⟨x, rfl⟩ ⟨y, rfl⟩; exact ⟨x * y, (EReal.coe_mul x y).symm⟩

/-- The larger of two real numbers is real. -/
theorem IsReal.max (a b : EReal) : IsReal a → IsReal b → IsReal (Max.max a b) := by
  intro ha hb
  rcases le_total a b with h | h
  · rw [max_eq_right h]; exact hb
  · rw [max_eq_left h]; exact ha

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact IsReal.add _ _ (h a (Finset.mem_insert_self a s)) (ih fun i hi => h i (Finset.mem_insert_of_mem hi))

/-- A binary pattern whose exponent field is not all ones denotes a real number (a zero, a subnormal or a normal). -/
theorem isReal_ieee_of_exponent_ne (e m : ℕ) {w : ℕ} (b : BitVec w) (h : (b.extractLsb' m e).toNat ≠ 2 ^ e - 1) :
    IsReal (Ideal.ieee e m b) := by
  unfold Ideal.ieee
  dsimp only
  rw [if_neg h]
  split <;> exact ⟨_, rfl⟩

/-- The single-precision word of all zero bits denotes a real number (zero). -/
theorem isReal_ofBits_zero : IsReal (Ideal.ofBits .f32 0x00000000#32) := by
  rw [Ideal.ofBits_zero_f32]; exact IsReal.zero

/-- The single-precision word `0x3F800000` (one) denotes a real number. -/
theorem isReal_ofBits_one : IsReal (Ideal.ofBits .f32 0x3F800000#32) := by
  show IsReal (Ideal.ieee 8 23 (0x3F800000#32 : BitVec 32))
  exact isReal_ieee_of_exponent_ne 8 23 (0x3F800000#32 : BitVec 32) (by decide)

/-- The single-precision word `0xBF000000` (minus one half) denotes a real number. -/
theorem isReal_ofBits_neg_half : IsReal (Ideal.ofBits .f32 0xBF000000#32) := by
  show IsReal (Ideal.ieee 8 23 (0xBF000000#32 : BitVec 32))
  exact isReal_ieee_of_exponent_ne 8 23 (0xBF000000#32 : BitVec 32) (by decide)

/-- The power of a real base to a real exponent is real (the real power function). -/
theorem isReal_pow (x y : EReal) : IsReal x → IsReal y → IsReal (Ideal.pow x y) := by
  rintro ⟨a, rfl⟩ ⟨b, rfl⟩; exact ⟨Real.rpow a b, rfl⟩

/-- An accumulating scatter of real updates into a real array is real at every entry: the entry plus a finite sum of
    the updates that land on it. -/
theorem isReal_scatterAdd {s si su : Shape} (d : ScatterDims s si su) {w : Nat} (x : s.Idx → EReal) (idx : IVec si w)
    (u : su.Idx → EReal) (hx : ∀ i, IsReal (x i)) (hu : ∀ j, IsReal (u j)) (i : s.Idx) :
    IsReal (Host.scatterAdd (F := Ideal) (φ := .f32) d x idx u i) := by
  show IsReal (x i + ∑ j ∈ Finset.univ.filter (fun j => d.resultIdx? j idx = some i), u j)
  exact IsReal.add _ _ (hx i) (IsReal.sum _ _ fun j _ => hu j)

/-- A gather of a real array is real at every entry: each entry of the result is an entry of the operand. -/
theorem isReal_gather {s si t : Shape} {w : Nat} (d : GatherDims s si t) (x : s.Idx → EReal) (idx : IVec si w)
    (hx : ∀ i, IsReal (x i)) (j : t.Idx) : IsReal (Host.gather d x idx j) := hx _

/-- A selection between two real entries is real. -/
theorem isReal_select {s : Shape} (c : IVec s 1) (a b : s.Idx → EReal) (i : s.Idx) :
    IsReal (a i) → IsReal (b i) → IsReal (select c a b i) := by
  intro ha hb
  rw [select_apply]
  unfold Scalar.select
  split <;> assumption

/-- Over real entries a dot product scaled by a real number is the dot product of the scaled first factor:
    (∑ₖ aₖ·bₖ)·c = ∑ₖ (aₖ·c)·bₖ. -/
theorem dot_scale {K : ℕ} (a b : Fin K → EReal) (c : EReal) (ha : ∀ k, IsReal (a k)) (hb : ∀ k, IsReal (b k))
    (hc : IsReal c) : (∑ k, a k * b k) * c = ∑ k, (a k * c) * b k := by
  choose a' ha' using ha
  choose b' hb' using hb
  obtain ⟨c', rfl⟩ := hc
  have e1 : ∀ k, a k * b k = ((a' k * b' k : ℝ) : EReal) := fun k => by rw [ha' k, hb' k, EReal.coe_mul]
  have e2 : ∀ k, (a k * (c' : EReal)) * b k = ((a' k * c' * b' k : ℝ) : EReal) := fun k => by
    rw [ha' k, hb' k, EReal.coe_mul, EReal.coe_mul]
  simp only [e1, e2]
  rw [← coe_sum, ← coe_sum, ← EReal.coe_mul, Finset.sum_mul]
  congr 1
  exact Finset.sum_congr rfl fun k _ => by ring

/-- A dot product of real entries is real. -/
theorem isReal_dot {K : ℕ} (a b : Fin K → EReal) : (∀ k, IsReal (a k)) → (∀ k, IsReal (b k)) →
    IsReal (∑ k, a k * b k) :=
  fun ha hb => IsReal.sum _ _ fun k _ => IsReal.mul _ _ (ha k) (hb k)

end Idealize.ShloMosaic.LibFinite

end
-- ==== Proof.Finite.lean ====
import proofs.«138782_j46694884442159_2_alg».proof.Pre_finite_inputs
import proofs.«138782_j46694884442159_2_alg».proof.Proof.Gen.Pre_finite_inputs
import proofs.«138782_j46694884442159_2_alg».proof.Proof.Spec
import proofs.«138782_j46694884442159_2_alg».proof.Proof.ScaleConst
import proofs.«138782_j46694884442159_2_alg».proof.Proof.LibFinite
import Idealize.ShloMosaic.Lib.ReduceAll
import Idealize.ShloMosaic.Lib.ValueIdx

/-!
# From finite inputs to real scores and values

The precondition says, of each of the three arrays, that every entry `x` has `|x| < +∞`.  On the extended reals
`|x| = max x (-x)` is `+∞` exactly at the two infinities, so every entry is a real number.  Real numbers are closed
under sums, products and finite sums, so the projection, the scaled scores and the values are real, and real-valued
witnesses for them exist.
-/

noncomputable section

namespace Cert.Finite

open Idealize.ShloMosaic Idealize.ShloMosaic.ValueIdx Idealize.ShloMosaic.LibFinite Cert.Spec

/-- The scalar shape has one index. -/
instance : Subsingleton Cert.Pre_finite_inputs.S_.Idx := ⟨fun _ _ => funext fun d => d.elim0⟩

/-- The word `0x7F800000` denotes `+∞`. -/
theorem pos_inf_bits : Ideal.ofBits .f32 0x7F800000#32 = (⊤ : EReal) := by
  simp [Ideal.ofBits, Ideal.ieee]

/-- An extended real whose absolute value is below `+∞` is a real number. -/
theorem isReal_of_abs_lt (x : EReal)
    (h : Ideal.cmp .olt (max x (-x)) (Ideal.ofBits .f32 0x7F800000#32) = 1#1) : IsReal x := by
  rw [pos_inf_bits] at h
  induction x using EReal.rec with
  | bot => exfalso; simp [Ideal.cmp] at h
  | coe r => exact ⟨r, rfl⟩
  | top => exfalso; simp [Ideal.cmp] at h

/-- The precondition decoded: every entry of the three arrays is a real number. -/
theorem entries_real [Cert.Pre_finite_inputs.Facts] (X : Cert.Spec.SX.Idx → EReal) (W : Cert.Spec.SW.Idx → EReal)
    (B : Cert.Spec.SB.Idx → EReal) (h : Cert.Pre_finite_inputs.fn (F := Ideal) X W B = fun _ => 1#1) :
    (∀ i, IsReal (X i)) ∧ (∀ i, IsReal (W i)) ∧ (∀ i, IsReal (B i)) := by
  have e := congrFun h ix0
  unfold Cert.Pre_finite_inputs.fn at e
  dsimp only at e
  change IntOp.andi (IntOp.andi (Host.reduce IntOp.andi _ _ _ _ ix0) (Host.reduce IntOp.andi _ _ _ _ ix0))
    (Host.reduce IntOp.andi _ _ _ _ ix0) = 1#1 at e
  rw [IntOp.andi_eq_one, IntOp.andi_eq_one] at e
  obtain ⟨⟨e0, e1⟩, e2⟩ := e
  refine ⟨fun i => ?_, fun i => ?_, fun i => ?_⟩
  · exact isReal_of_abs_lt (X i) (Host.reduce_andi_all _ _ _ _ ix0 e0 i)
  · exact isReal_of_abs_lt (W i) (Host.reduce_andi_all _ _ _ _ ix0 e1 i)
  · exact isReal_of_abs_lt (B i) (Host.reduce_andi_all _ _ _ _ ix0 e2 i)

variable {X : Cert.Spec.SX.Idx → EReal} {W : Cert.Spec.SW.Idx → EReal} {B : Cert.Spec.SB.Idx → EReal}

/-- The projection of real arrays is real. -/
theorem proj_real (hX : ∀ i, IsReal (X i)) (hW : ∀ i, IsReal (W i)) (hB : ∀ i, IsReal (B i))
    (b : Fin 4) (t : Fin 2048) (d : Fin 3072) : IsReal (Cert.Spec.proj X W B b t d) := by
  unfold Cert.Spec.proj
  exact IsReal.add _ _ (isReal_dot _ _ (fun k => hX _) (fun k => hW _)) (hB _)

/-- The scaled score of real arrays is real: the scale is `1/32`. -/
theorem score_real (hX : ∀ i, IsReal (X i)) (hW : ∀ i, IsReal (W i)) (hB : ∀ i, IsReal (B i))
    (b : Fin 4) (t u : Fin 2048) : IsReal (Cert.Spec.score X W B b t u) := by
  unfold Cert.Spec.score
  refine IsReal.mul _ _ (isReal_dot _ _ (fun c => ?_) (fun c => ?_)) ?_
  · exact proj_real hX hW hB b t _
  · exact proj_real hX hW hB b u _
  · unfold Cert.Spec.scale
    rw [ScaleConst.scale_bits]
    exact IsReal.coe _

/-- Real-valued scores and values whose coercions are the specification's. -/
theorem real_witnesses (hX : ∀ i, IsReal (X i)) (hW : ∀ i, IsReal (W i)) (hB : ∀ i, IsReal (B i)) :
    ∃ (sR : Fin 4 → Fin 2048 → Fin 2048 → ℝ) (vR : Fin 4 → Fin 2048 → Fin 1024 → ℝ),
      (∀ b t u, Cert.Spec.score X W B b t u = ((sR b t u : ℝ) : EReal))
        ∧ (∀ b u c, Cert.Spec.vv X W B b u c = ((vR b u c : ℝ) : EReal)) := by
  have hs : ∀ (b : Fin 4) (t u : Fin 2048), ∃ r : ℝ, Cert.Spec.score X W B b t u = (r : EReal) :=
    fun b t u => score_real hX hW hB b t u
  have hv : ∀ (b : Fin 4) (u : Fin 2048) (c : Fin 1024), ∃ r : ℝ, Cert.Spec.vv X W B b u c = (r : EReal) :=
    fun b u c => proj_real hX hW hB b u _
  choose sR hsR using hs
  choose vR hvR using hv
  exact ⟨sR, vR, hsR, hvR⟩

end Cert.Finite

end
-- ==== Proof.KernelIdeal.Val1b.lean ====
/-
  Region 1 at the exact instance, over the grid. At point t (batch b, query block qi, key block ki) the block's scores
  and values are those of keys ki·512 … ki·512 + 511 of the specification; so after the point the scratch state at
  (row p, column c) summarises the keys below (ki + 1)·512, by induction on the position; at a last key block that is
  every key, and the stored quotient is the specification's attention output. Needs the argument entries real.
-/
import proofs.«138782_j46694884442159_2_alg».proof.Proof.KernelIdeal.Val1a
import proofs.«138782_j46694884442159_2_alg».proof.Proof.KernelIdeal.Blocks1
import proofs.«138782_j46694884442159_2_alg».proof.Proof.KernelIdeal.Entry1
import proofs.«138782_j46694884442159_2_alg».proof.Proof.Finite

noncomputable section

namespace Cert.KernelIdeal.Fr

open Cert.KernelIdeal Cert.KernelIdeal.Gen Cert.KernelIdeal.Pay
open Idealize.ShloMosaic Idealize.ShloMosaic.ValueIdx Idealize.ShloMosaic.TcCoe Idealize.SL.Sem OnlineSoftmax Idealize.ShloMosaic.LibFinite

variable (m : (ℓ : Loc nD τ sig) → Buf (Elt Ideal) ℓ) (ρ : Dev nD → PrngReg) (c : Dev nD)

/-- The three argument arrays as launched. -/
abbrev aX : Cert.Spec.SX.Idx → EReal := m ((c.tc : Thread nD τ).loc main_arg0)
abbrev aW : Cert.Spec.SW.Idx → EReal := m ((c.tc : Thread nD τ).loc main_arg1)
abbrev aB : Cert.Spec.SB.Idx → EReal := m ((c.tc : Thread nD τ).loc main_arg2)

/-- A point's block scores are the specification's scores of its query rows against its key rows. -/
theorem scoreBlk_eq (t : Fin cfg1.N) (p : Fin 1024) (u : Fin 512) :
    scoreBlk (iblk1 (V3 m ρ) c 0 t) (iblk1 (V3 m ρ) c 1 t) p u
      = Cert.Spec.score (aX m c) (aW m c) (aB m c) (bOf t) (rowQ t p) (rowK t u) := by
  unfold scoreBlk
  rw [pay8_apply]
  unfold Cert.Spec.score Cert.Spec.qv Cert.Spec.kv Cert.Spec.scale
  congr 1
  refine Finset.sum_congr rfl fun x _ => ?_
  rw [iblk1_0_apply, iblk1_1_apply, entry1_eq, entry1_eq]

/-- A point's value block holds the specification's values of its key rows. -/
theorem valBlk_eq (t : Fin cfg1.N) (u : Fin 512) (cc : Fin 1024) :
    iblk1 (V3 m ρ) c 2 t (ix3 (0 : Fin 1) u cc) = Cert.Spec.vv (aX m c) (aW m c) (aB m c) (bOf t) (rowK t u) cc := by
  rw [iblk1_2_apply, entry1_eq]
  rfl

/-- The keys of the first n key blocks. -/
def keysBelow (n : ℕ) : Finset (Fin 2048) := Finset.univ.filter fun i => i.val < n * 512

theorem keysBelow_zero : keysBelow 0 = ∅ := by
  unfold keysBelow; ext i; simp

theorem keysBelow_four : keysBelow 4 = Finset.univ := by
  unfold keysBelow; ext i; simp

theorem rowK_inj (t : Fin cfg1.N) : Function.Injective (rowK t) := by
  intro u u' h
  have := congrArg Fin.val h
  unfold rowK at this; dsimp only at this
  exact Fin.ext (by omega)

theorem rowK_not_below (t : Fin cfg1.N) (u : Fin 512) : rowK t u ∉ keysBelow (t.val % 4) := by
  unfold keysBelow rowK; simp

theorem keysBelow_succ (t : Fin cfg1.N) : keysBelow (t.val % 4) ∪ Finset.univ.image (rowK t) = keysBelow (t.val % 4 + 1) := by
  unfold keysBelow
  ext i
  simp only [Finset.mem_union, Finset.mem_filter, Finset.mem_univ, true_and, Finset.mem_image]
  constructor
  · rintro (h | ⟨u, rfl⟩)
    · omega
    · unfold rowK; dsimp only; have := u.isLt; omega
  · intro h
    by_cases hlt : i.val < t.val % 4 * 512
    · exact Or.inl hlt
    · refine Or.inr ⟨⟨i.val - t.val % 4 * 512, by omega⟩, ?_⟩
      unfold rowK; exact Fin.ext (by dsimp only; omega)

section
variable (sR : Fin 4 → Fin 2048 → Fin 2048 → ℝ) (vR : Fin 4 → Fin 2048 → Fin 1024 → ℝ)
  (hs : ∀ b t u, Cert.Spec.score (aX m c) (aW m c) (aB m c) b t u = ((sR b t u : ℝ) : EReal))
  (hv : ∀ b u cc, Cert.Spec.vv (aX m c) (aW m c) (aB m c) b u cc = ((vR b u cc : ℝ) : EReal))

include hs hv in
/-- THE INVARIANT. After position n the scratch state at (p, cc) summarises the keys of the key blocks walked so far. -/
theorem summ_at : ∀ (n : ℕ) (hn : n < cfg1.N) (p cc : Fin 1024),
    Summ (sR (bOf ⟨n, hn⟩) (rowQ ⟨n, hn⟩ p)) (fun u => vR (bOf ⟨n, hn⟩) u cc) (keysBelow (n % 4 + 1))
      ((stAt (V3 m ρ) c n hn).1 (ix2 p (0 : Fin 1))) ((stAt (V3 m ρ) c n hn).2.1 (ix2 p (0 : Fin 1))) ((stAt (V3 m ρ) c n hn).2.2 (ix2 p cc)) := by
  intro n
  induction n with
  | zero =>
    intro hn p cc
    have h := summ_stepS (sR (bOf ⟨0, hn⟩) (rowQ ⟨0, hn⟩ p)) (fun u => vR (bOf ⟨0, hn⟩) u cc) ∅ (rowK ⟨0, hn⟩) (rowK_inj _)
      (fun u => Finset.notMem_empty _) (iblk1 (V3 m ρ) c 0 ⟨0, hn⟩) (iblk1 (V3 m ρ) c 1 ⟨0, hn⟩) (iblk1 (V3 m ρ) c 2 ⟨0, hn⟩) initS p cc
      (fun u => (scoreBlk_eq m ρ c ⟨0, hn⟩ p u).trans (hs _ _ _)) (fun u => (valBlk_eq m ρ c ⟨0, hn⟩ u cc).trans (hv _ _ _))
      (summ_initS _ _ p cc)
    rw [stAt_first (V3 m ρ) c ⟨0, hn⟩ (Nat.zero_mod _)]
    have hk := keysBelow_succ ⟨0, hn⟩
    simp only [Nat.zero_mod, keysBelow_zero] at hk
    rw [Nat.zero_mod, ← hk]
    exact h
  | succ n ih =>
    intro hn p cc
    have hN : n + 1 < 32 := lt32 ⟨n + 1, hn⟩
    by_cases h0 : (n + 1) % 4 = 0
    · have h := summ_stepS (sR (bOf ⟨n + 1, hn⟩) (rowQ ⟨n + 1, hn⟩ p)) (fun u => vR (bOf ⟨n + 1, hn⟩) u cc) ∅ (rowK ⟨n + 1, hn⟩) (rowK_inj _)
        (fun u => Finset.notMem_empty _) (iblk1 (V3 m ρ) c 0 ⟨n + 1, hn⟩) (iblk1 (V3 m ρ) c 1 ⟨n + 1, hn⟩) (iblk1 (V3 m ρ) c 2 ⟨n + 1, hn⟩) initS p cc
        (fun u => (scoreBlk_eq m ρ c ⟨n + 1, hn⟩ p u).trans (hs _ _ _)) (fun u => (valBlk_eq m ρ c ⟨n + 1, hn⟩ u cc).trans (hv _ _ _))
        (summ_initS _ _ p cc)
      rw [stAt_first (V3 m ρ) c ⟨n + 1, hn⟩ h0]
      have hk := keysBelow_succ ⟨n + 1, hn⟩
      simp only [h0, keysBelow_zero] at hk
      rw [h0, ← hk]
      exact h
    · have hn' : n < cfg1.N := Nat.lt_of_succ_lt hn
      have hb : bOf ⟨n, hn'⟩ = bOf ⟨n + 1, hn⟩ := Fin.ext (by unfold bOf; dsimp only; omega)
      have hq : rowQ ⟨n, hn'⟩ p = rowQ ⟨n + 1, hn⟩ p := Fin.ext (by unfold rowQ; dsimp only; omega)
      have hm4 : n % 4 + 1 = (n + 1) % 4 := by omega
      have hprev := ih hn' p cc
      rw [hb, hq, hm4] at hprev
      have h := summ_stepS (sR (bOf ⟨n + 1, hn⟩) (rowQ ⟨n + 1, hn⟩ p)) (fun u => vR (bOf ⟨n + 1, hn⟩) u cc) (keysBelow ((n + 1) % 4)) (rowK ⟨n + 1, hn⟩) (rowK_inj _)
        (fun u => rowK_not_below ⟨n + 1, hn⟩ u) (iblk1 (V3 m ρ) c 0 ⟨n + 1, hn⟩) (iblk1 (V3 m ρ) c 1 ⟨n + 1, hn⟩) (iblk1 (V3 m ρ) c 2 ⟨n + 1, hn⟩)
        (stAt (V3 m ρ) c n hn') p cc
        (fun u => (scoreBlk_eq m ρ c ⟨n + 1, hn⟩ p u).trans (hs _ _ _)) (fun u => (valBlk_eq m ρ c ⟨n + 1, hn⟩ u cc).trans (hv _ _ _))
        hprev
      rw [stAt_next (V3 m ρ) c ⟨n + 1, hn⟩ h0]
      rw [← keysBelow_succ ⟨n + 1, hn⟩]
      exact h

include hs hv in
/-- At a last key block the stored entry is the specification's attention output. -/
theorem out_eq (t : Fin cfg1.N) (h1 : t.val % 4 = 3) (p cc : Fin 1024) :
    (outsAt1 (V3 m ρ) c t.val t.isLt).1 (ix3 (0 : Fin 1) p cc)
      = Cert.Spec.out (aX m c) (aW m c) (aB m c) (bOf t) (rowQ t p) cc := by
  rw [out_last (V3 m ρ) c t h1, finS_apply]
  have h := summ_at m ρ c sR vR hs hv t.val t.isLt p cc
  rw [h1, keysBelow_four] at h
  rw [summ_final _ _ h]
  have hmax : (stAt (V3 m ρ) c t.val t.isLt).1 (ix2 p (0 : Fin 1)) = Cert.Spec.rowMax (aX m c) (aW m c) (aB m c) (bOf t) (rowQ t p) := by
    rw [h.hm]; unfold Cert.Spec.rowMax; simp only [hs]
  rw [hmax]
  unfold Cert.Spec.out Cert.Spec.wgt
  simp only [hs, hv]
end

/-- The specification's output as an array. -/
def outG : S4x2048x1024.Idx → EReal := fun j =>
  Cert.Spec.out (aX m c) (aW m c) (aB m c) (⟨(j 0).val, (j 0).isLt⟩ : Fin 4) (⟨(j 1).val, (j 1).isLt⟩ : Fin 2048) (⟨(j 2).val, (j 2).isLt⟩ : Fin 1024)

theorem outG_apply (b : Fin 4) (t : Fin 2048) (cc : Fin 1024) :
    outG m c (ix3 b t cc) = Cert.Spec.out (aX m c) (aW m c) (aB m c) b t cc := rfl

/-- Under the precondition, region 1 leaves the specification's output in the result array. -/
theorem result_eq (hpre : Cert.Pre_finite_inputs.fn (F := Ideal) (aX m c) (aW m c) (aB m c) = fun _ => 1#1) :
    (dat1 (V3 m ρ) c).arrAt 3 cfg1.N = outG m c := by
  obtain ⟨hX, hW, hB⟩ := Cert.Finite.entries_real (aX m c) (aW m c) (aB m c) hpre
  obtain ⟨sR, vR, hs, hv⟩ := Cert.Finite.real_witnesses hX hW hB
  exact final1 (V3 m ρ) c (outG m c) fun t h1 p cc => (out_eq m ρ c sR vR hs hv t h1 p cc).trans (outG_apply m c _ _ _).symm

end Cert.KernelIdeal.Fr

end
-- ==== Proof.RefValue.lean ====
import proofs.«138782_j46694884442159_2_alg».proof.Proof.Gen.ReferenceIdeal.Read
import proofs.«138782_j46694884442159_2_alg».proof.Proof.Spec
import proofs.«138782_j46694884442159_2_alg».proof.Proof.ScaleConst

/-!
# The reference's result, read at an index

The reference computes, from `x : [4, 2048, 1024]`, `W : [1024, 3072]` and a bias of length `3072`: the joint
projection `x · W + bias`, its three thirds (queries, keys, values), the scores `q · kᵀ` scaled by
`1 / sqrt 1024`, the row maximum, the exponentials of the scores less their row maximum, their row sum, the quotient,
and the weighted sum of the values.  Read stage by stage at an index, each stage is the corresponding piece of the
specification; the last one is the attention output.
-/

noncomputable section

namespace Cert.ReferenceIdeal.RefValue

open Cert.ReferenceIdeal Cert.ReferenceIdeal.Gen Cert.ReferenceIdeal.Value Cert.ReferenceIdeal.Read Idealize.ShloMosaic Idealize.ShloMosaic.ValueIdx Idealize.ShloMosaic.TcCoe Idealize.SL.Sem

variable (x0 : (⟨S4x2048x1024, .f32⟩ : BufTy).Contents (Elt Ideal)) (x1 : (⟨S1024x3072, .f32⟩ : BufTy).Contents (Elt Ideal)) (x2 : (⟨S3072, .f32⟩ : BufTy).Contents (Elt Ideal))

/-- The projection with its bias, at (b, t, d): `Σ_k x(b, t, k) · W(k, d) + bias(d)`. -/
theorem v3_eq (b : Fin 4) (t : Fin 2048) (d : Fin 3072) :
    val_main_v3 (F := Ideal) x0 x1 x2 (ix3 b t d) = Cert.Spec.proj x0 x1 x2 b t d := by
  rw [val_main_v3_apply, val_main_v0_apply, val_main_v2_apply, val_main_v1_apply]
  have el : ∀ k : Fin 1024, lidx_main_v0 (ix3 b t d) k = ix3 b t k := fun k =>
    funext fun a => Fin.ext (by match a with | ⟨0, _⟩ => rfl | ⟨1, _⟩ => rfl | ⟨2, _⟩ => rfl)
  have er : ∀ k : Fin 1024, ridx_main_v0 (ix3 b t d) k = ix2 k d := fun k =>
    funext fun a => Fin.ext (by match a with | ⟨0, _⟩ => rfl | ⟨1, _⟩ => rfl)
  have eb : idx_main_v1 (idx_main_v2 (ix3 b t d)) = ix1 d :=
    funext fun a => Fin.ext (by match a with | ⟨0, _⟩ => rfl)
  simp only [el, er, eb, Ideal.addf_def]
  rfl

/-- The queries: the first third of the projection. -/
theorem v4_eq (b : Fin 4) (t : Fin 2048) (c : Fin 1024) :
    val_main_v4 (F := Ideal) x0 x1 x2 (ix3 b t c) = Cert.Spec.qv x0 x1 x2 b t c := by
  rw [val_main_v4_apply]
  have e : idx_main_v4 (ix3 b t c) = ix3 b t (⟨c.val, by omega⟩ : Fin 3072) :=
    funext fun a => Fin.ext (by match a with | ⟨0, _⟩ => rfl | ⟨1, _⟩ => rfl | ⟨2, _⟩ => rfl)
  rw [e, v3_eq]
  rfl

/-- The keys: the second third of the projection. -/
theorem v5_eq (b : Fin 4) (t : Fin 2048) (c : Fin 1024) :
    val_main_v5 (F := Ideal) x0 x1 x2 (ix3 b t c) = Cert.Spec.kv x0 x1 x2 b t c := by
  rw [val_main_v5_apply]
  have e : idx_main_v5 (ix3 b t c) = ix3 b t (⟨1024 + c.val, by omega⟩ : Fin 3072) :=
    funext fun a => Fin.ext (by match a with | ⟨0, _⟩ => rfl | ⟨1, _⟩ => rfl | ⟨2, _⟩ => rfl)
  rw [e, v3_eq]
  rfl

/-- The values: the last third of the projection. -/
theorem v6_eq (b : Fin 4) (t : Fin 2048) (c : Fin 1024) :
    val_main_v6 (F := Ideal) x0 x1 x2 (ix3 b t c) = Cert.Spec.vv x0 x1 x2 b t c := by
  rw [val_main_v6_apply]
  have e : idx_main_v6 (ix3 b t c) = ix3 b t (⟨2048 + c.val, by omega⟩ : Fin 3072) :=
    funext fun a => Fin.ext (by match a with | ⟨0, _⟩ => rfl | ⟨1, _⟩ => rfl | ⟨2, _⟩ => rfl)
  rw [e, v3_eq]
  rfl

/-- The scale `1 / sqrt 1024` is the word of `1/32`. -/
theorem v8_eq (i : S_.Idx) : val_main_v8 (F := Ideal) i = Cert.Spec.scale := by
  rw [val_main_v8_apply, val_main_cst_0_apply, val_main_v7_apply, val_main_cst_apply]
  simp only [Ideal.hostDivf_def, Ideal.hostUnary_sqrt_def, Ideal.ofBits_def]
  exact ScaleConst.scale_eq

/-- The scaled score of query `t` against key `u`. -/
theorem v11_eq (b : Fin 4) (t u : Fin 2048) :
    val_main_v11 (F := Ideal) x0 x1 x2 (ix3 b t u) = Cert.Spec.score x0 x1 x2 b t u := by
  rw [val_main_v11_apply, val_main_v9_apply, val_main_v10_apply, v8_eq]
  have el : ∀ k : Fin 1024, lidx_main_v9 (ix3 b t u) k = ix3 b t k := fun k =>
    funext fun a => Fin.ext (by match a with | ⟨0, _⟩ => rfl | ⟨1, _⟩ => rfl | ⟨2, _⟩ => rfl)
  have er : ∀ k : Fin 1024, ridx_main_v9 (ix3 b t u) k = ix3 b u k := fun k =>
    funext fun a => Fin.ext (by match a with | ⟨0, _⟩ => rfl | ⟨1, _⟩ => rfl | ⟨2, _⟩ => rfl)
  simp only [el, er, v4_eq, v5_eq, Ideal.mulf_def]
  rfl

/-- On the extended reals the fold of the maximum from `⊥` is the supremum. -/
theorem fold_maximumf_bot {n : Nat} (f : Fin n → EReal) :
    (Finset.univ : Finset (Fin n)).fold (FloatOps.maximumf (F := Ideal) (φ := .f32)) (⊥ : EReal) f
      = Finset.univ.sup f := rfl

/-- The row maximum: the reduction with the maximum over the keys, from `-∞`. -/
theorem v12_eq (b : Fin 4) (t : Fin 2048) :
    val_main_v12 (F := Ideal) x0 x1 x2 (ix2 b t) = Cert.Spec.rowMax x0 x1 x2 b t := by
  unfold val_main_v12
  have h : S4x2048x2048.Reduces [2] S4x2048 := by decide
  rw [Host.reduce_eq_fold_single FloatOps.maximumf _ _ reducesTo_S4x2048x2048_S4x2048_d2 h h_S_]
  have hl : ∀ k : Fin 2048, h.lift (ix2 b t) k = ix3 b t k := fun k =>
    funext fun c => Fin.ext (by match c with | ⟨0, _⟩ => rfl | ⟨1, _⟩ => rfl | ⟨2, _⟩ => rfl)
  have hf : (val_main_v11 (F := Ideal) x0 x1 x2 ∘ h.lift (ix2 b t))
      = fun u : Fin 2048 => Cert.Spec.score x0 x1 x2 b t u := funext fun (u : Fin 2048) =>
    (congrArg (val_main_v11 (F := Ideal) x0 x1 x2) (hl u)).trans (v11_eq x0 x1 x2 b t u)
  have hi : val_main_cst_1 (F := Ideal) (Shape.Idx.first h_S_) = (⊥ : EReal) := by
    rw [val_main_cst_1_apply, Ideal.ofBits_def]; exact ScaleConst.neg_inf_bits
  refine Eq.trans ?_ (fold_maximumf_bot fun u : Fin 2048 => Cert.Spec.score x0 x1 x2 b t u)
  rw [hi, hf]
  rfl

/-- The further maximum with a broadcast `-∞` changes nothing. -/
theorem v14_eq (b : Fin 4) (t : Fin 2048) :
    val_main_v14 (F := Ideal) x0 x1 x2 (ix2 b t) = Cert.Spec.rowMax x0 x1 x2 b t := by
  rw [val_main_v14_apply, val_main_v13_apply, val_main_cst_2_apply, v12_eq, Ideal.maximumf_def,
    Ideal.ofBits_def, ScaleConst.neg_inf_bits]
  exact max_eq_right bot_le

/-- The row maximum broadcast back along the keys. -/
theorem v16_eq (b : Fin 4) (t u : Fin 2048) :
    val_main_v16 (F := Ideal) x0 x1 x2 (ix3 b t u) = Cert.Spec.rowMax x0 x1 x2 b t := by
  rw [val_main_v16_apply, val_main_v15_apply]
  have e : idx_main_v15 (idx_main_v16 (ix3 b t u)) = ix2 b t :=
    funext fun a => Fin.ext (by match a with | ⟨0, _⟩ => rfl | ⟨1, _⟩ => rfl)
  rw [e, v14_eq]

/-- The unnormalised weight `exp (score - row maximum)`. -/
theorem v18_eq (b : Fin 4) (t u : Fin 2048) :
    val_main_v18 (F := Ideal) x0 x1 x2 (ix3 b t u) = Cert.Spec.wgt x0 x1 x2 b t u := by
  rw [val_main_v18_apply, val_main_v17_apply, v11_eq, v16_eq, Ideal.hostUnary_exp_def, Ideal.subf_def]
  rfl

/-- The row sum of the weights (from the initial value `0`). -/
theorem v19_eq (b : Fin 4) (t : Fin 2048) :
    val_main_v19 (F := Ideal) x0 x1 x2 (ix2 b t) = ∑ u' : Fin 2048, Cert.Spec.wgt x0 x1 x2 b t u' := by
  rw [val_main_v19_apply, val_main_cst_3_apply, Ideal.ofBits_def, Ideal.ofBits_zero_f32, zero_add]
  have e : ∀ k : Fin 2048, idx_main_v19 (ix2 b t) k = ix3 b t k := fun k =>
    funext fun a => Fin.ext (by match a with | ⟨0, _⟩ => rfl | ⟨1, _⟩ => rfl | ⟨2, _⟩ => rfl)
  simp only [e, v18_eq]

/-- The row sum broadcast back along the keys. -/
theorem v21_eq (b : Fin 4) (t u : Fin 2048) :
    val_main_v21 (F := Ideal) x0 x1 x2 (ix3 b t u) = ∑ u' : Fin 2048, Cert.Spec.wgt x0 x1 x2 b t u' := by
  rw [val_main_v21_apply, val_main_v20_apply]
  have e : idx_main_v20 (idx_main_v21 (ix3 b t u)) = ix2 b t :=
    funext fun a => Fin.ext (by match a with | ⟨0, _⟩ => rfl | ⟨1, _⟩ => rfl)
  rw [e, v19_eq]

/-- The normalised weight. -/
theorem v22_eq (b : Fin 4) (t u : Fin 2048) :
    val_main_v22 (F := Ideal) x0 x1 x2 (ix3 b t u)
      = Ideal.div (Cert.Spec.wgt x0 x1 x2 b t u) (∑ u' : Fin 2048, Cert.Spec.wgt x0 x1 x2 b t u') := by
  rw [val_main_v22_apply, v18_eq, v21_eq, Ideal.hostDivf_def]

/-- The reference's last stage at (b, t, c) is the attention output of the specification. -/
theorem res_eq (x0 : (⟨S4x2048x1024, .f32⟩ : BufTy).Contents (Elt Ideal)) (x1 : (⟨S1024x3072, .f32⟩ : BufTy).Contents (Elt Ideal))
    (x2 : (⟨S3072, .f32⟩ : BufTy).Contents (Elt Ideal)) (b : Fin 4) (t : Fin 2048) (c : Fin 1024) :
    val_main_v23 (F := Ideal) x0 x1 x2 (ix3 b t c) = Cert.Spec.out x0 x1 x2 b t c := by
  rw [val_main_v23_apply]
  have el : ∀ k : Fin 2048, lidx_main_v23 (ix3 b t c) k = ix3 b t k := fun k =>
    funext fun a => Fin.ext (by match a with | ⟨0, _⟩ => rfl | ⟨1, _⟩ => rfl | ⟨2, _⟩ => rfl)
  have er : ∀ k : Fin 2048, ridx_main_v23 (ix3 b t c) k = ix3 b k c := fun k =>
    funext fun a => Fin.ext (by match a with | ⟨0, _⟩ => rfl | ⟨1, _⟩ => rfl | ⟨2, _⟩ => rfl)
  simp only [el, er, v22_eq, v6_eq]
  rfl

/-- The run's term for the result, read at (b, t, c), is the attention output of the launch contents. -/
theorem res_out0_eq (m : (ℓ : Loc nD τ sig) → Buf (Elt Ideal) ℓ) (d : Dev nD) (b : Fin 4) (t : Fin 2048) (c : Fin 1024) :
    res_out0 (F := Ideal) m d (ix3 b t c)
      = Cert.Spec.out (m ((d.tc : Thread nD τ).loc main_arg0)) (m ((d.tc : Thread nD τ).loc main_arg1))
          (m ((d.tc : Thread nD τ).loc main_arg2)) b t c := by
  show res_main_v23 (F := Ideal) m d (ix3 b t c) = _
  rw [val_main_v23_eq]
  exact res_eq _ _ _ b t c

end Cert.ReferenceIdeal.RefValue

end
-- ==== Proof.lean ====
/-
  The certificate. The projection-then-attention kernel and its plain-softmax reference compute, at the exact instance,
  the same function of the three argument arrays: out(b, t, c) = Σ_u softmax_u(q(b,t,·)·k(b,u,·)·2⁻⁵) · v(b, u, c), with
  q, k, v the thirds of x·W + bias. The kernel reaches it by walking the keys in four blocks with a running maximum, a
  running normaliser and a running weighted sum, rescaled at each block and divided at the end; the two arrangements agree
  because every score and value is a real number under the precondition. Each program runs to the end, faults nowhere and
  leaves its arguments unchanged; the kernel's idealization rewrote no operation.
-/
import proofs.«138782_j46694884442159_2_alg».proof.Defs
import proofs.«138782_j46694884442159_2_alg».proof.Proof.Gen.Kernel
import proofs.«138782_j46694884442159_2_alg».proof.Proof.Gen.KernelIdeal
import proofs.«138782_j46694884442159_2_alg».proof.Proof.Gen.ReferenceIdeal
import proofs.«138782_j46694884442159_2_alg».proof.Proof.Gen.Pre_finite_inputs
import proofs.«138782_j46694884442159_2_alg».proof.Proof.Kernel.Run
import proofs.«138782_j46694884442159_2_alg».proof.Proof.KernelIdeal.Val1b
import proofs.«138782_j46694884442159_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_p : Cert.frame_Kernel := fun m ρ _ => Cert.Kernel.Fr.frame m ρ
/-- So does its reading at the exact instance. -/
theorem frame_pi : Cert.frame_KernelIdeal := fun m ρ _ => Cert.KernelIdeal.Fr.frame m ρ
/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact instance both programs end with the specification's output in their result arrays. -/
theorem algebraic : Cert.algebraic_KernelIdeal_ReferenceIdeal := by
  intro m ρ m' ρ' hpre hagree
  refine ⟨fun c => Cert.KernelIdeal.Fr.outG m c, ?_, ?_⟩
  · exact (θ_run Cert.KernelIdeal.defs _ _).mono
      (fun r h c => ⟨(h c).1.trans (Cert.KernelIdeal.Fr.result_eq m ρ c (hpre c)), (h c).2⟩)
      (Cert.KernelIdeal.Fr.run_result m ρ)
  · refine (θ_run Cert.ReferenceIdeal.defs _ _).mono (fun r h c => ⟨(h c).1.trans ?_, (h c).2⟩)
      (Cert.ReferenceIdeal.Value.run (F := Ideal) m' ρ')
    funext j
    rw [ValueIdx.eq_ix3 j]
    refine (Cert.ReferenceIdeal.RefValue.res_out0_eq m' c _ _ _).trans ?_
    rw [(hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
